-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 135
  | .vmem => 48
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S100000x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x1, .f32⟩
  | 95 => ⟨S1700000x128, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S100000x128, .f32⟩
  | 116 => ⟨S100000x64, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x64, .f32⟩
  | 126 => ⟨S1700000x1, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71_0 : Ref sig .tc := ⟨.hbm, 102, rfl⟩
abbrev main_v71_1 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v81) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x64, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x64, .f32⟩
  | 40 => ⟨S1700000x1, .f32⟩
  | 41 => ⟨S1700000x64, .f32⟩
  | 42 => ⟨S1700000x64, .f32⟩
  | 43 => ⟨S_, .f32⟩
  | 44 => ⟨S100000x64, .f32⟩
  | 45 => ⟨S1700000x1, .i32⟩
  | 46 => ⟨S100000x64, .f32⟩
  | 47 => ⟨S1x64, .f32⟩
  | 48 => ⟨S100000x64, .f32⟩
  | 49 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call2_cst : Ref sig .tc := ⟨.hbm, 155, rfl⟩
abbrev main_call2_v0 : Ref sig .tc := ⟨.hbm, 156, rfl⟩
abbrev main_v115 : Ref sig .tc := ⟨.hbm, 157, rfl⟩
abbrev main_v116 : Ref sig .tc := ⟨.hbm, 158, rfl⟩
abbrev main_c_22 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  Every weakly fair execution of the program ends with the result buffer at the contents the last region
  leaves and with the argument arrays as launched.
-/
import proofs.«102224_j12773232738363_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument as launched. -/
theorem run : θ_run defs (onTc (τ := τ) (main (F := F))) ⟨m, fun _ => 0, ρ⟩ (fun r => ∀ c : Dev nD,
      r.2.mem ((c.tc : Thread nD τ).loc main_v97) = W16 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v97 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.RunValue

end
-- ==== Proof.Spec.lean ====
/-
  Three graph-convolution layers, the first two followed by batch normalisation and a rectifier, written as
  functions on arrays of extended reals.

  A layer multiplies the node features by a weight matrix, gathers the product's rows along the edges, scales
  each gathered row by the edge's weight, adds the rows up at the edges' target nodes, and adds a bias row.
  Batch normalisation subtracts the column mean, multiplies by the inverse square root of the column variance
  plus a small constant, scales and shifts. The column variance is written in two ways: directly, as the mean
  of the squared deviations from the mean, and through the moments, as the mean of the squares minus the square
  of the mean. Over the reals the two agree; the statement and proof of that are in the module of the laws.
-/
import Idealize.ShloMosaic.PureOps.Ideal
import Idealize.ShloMosaic.Lib.ValueIdx

noncomputable section

open scoped BigOperators

namespace Cert.Gcn

open Idealize.ShloMosaic Idealize.ShloMosaic.ValueIdx

/-- An M×N array of extended reals. -/
abbrev Mat (M N : Nat) : Type := (⟨2, ![M, N]⟩ : Shape).Idx → EReal

/-- The number of rows, 100000, as both programs write it. -/
def count : EReal := Ideal.ofBits .f32 0x47C35000#32

/-- The small constant added to the variance, as both programs write it. -/
def eps : EReal := Ideal.ofBits .f32 0x3727C5AC#32

/-- The sum of every column, as a 1×N row. -/
def colSum {M N : Nat} (A : Mat M N) : Mat 1 N := fun j => ∑ p : Fin M, A (ix2 p (j 1))

/-- Entry by entry, the square. -/
def sqr {M N : Nat} (A : Mat M N) : Mat M N := fun i => A i * A i

/-- A row of sums divided by the number of rows. -/
def meanRow {N : Nat} (S : Mat 1 N) : Mat 1 N := fun j => Ideal.div (S j) count

/-- Every row less a 1×N row. -/
def centred {M N : Nat} (H : Mat M N) (mean : Mat 1 N) : Mat M N := fun i => H i - mean (ix2 0 (i 1))

/-- The column variance, directly: the mean of the squared deviations from the column mean. -/
def varDirect {M N : Nat} (H : Mat M N) : Mat 1 N := meanRow (colSum (sqr (centred H (meanRow (colSum H)))))

/-- The column variance through the moments: the mean of the squares less the square of the mean,
    from the row of sums S and the row of sums of squares Q. -/
def varOfMoments {N : Nat} (S Q : Mat 1 N) : Mat 1 N := fun j => meanRow Q j - meanRow S j * meanRow S j

/-- The column variance through the moments, of an array. -/
def varMoments {M N : Nat} (H : Mat M N) : Mat 1 N := varOfMoments (colSum H) (colSum (sqr H))

/-- Normalise, scale, shift and rectify: max(((H − mean) · rsqrt(var + eps)) · g + be, 0), the rows
    mean, var, g, be spread over every row of H. -/
def normRelu {M N : Nat} (H : Mat M N) (mean var g be : Mat 1 N) : Mat M N := fun i =>
  max ((H i - mean (ix2 0 (i 1))) * Ideal.rsqrt (var (ix2 0 (i 1)) + eps) * g (ix2 0 (i 1)) + be (ix2 0 (i 1)))
    (Ideal.ofBits .f32 0x00000000#32)

end Cert.Gcn

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibEdgeSum.lean ====
/-
  Rows gathered along edges, weighted, and summed at the edges' targets.

  A table of N rows is read at the source row of each of M edges, each gathered row is multiplied by its
  edge's weight, and the weighted rows are added into an N-row array at the edges' target rows. Read at an
  entry (n, k) the result is the initial value plus the sum, over the edges whose target word is n, of the
  table's entry (source row, k) times the edge's weight. The source word is read signed and clamped into
  the table; an edge whose target word names no row adds nothing.
-/
import Idealize.ShloMosaic.PureOps.Ideal
import Idealize.ShloMosaic.Lib.ValueIdx
import Idealize.ShloMosaic.Lib.Pipeline.Value
import proofs.«102224_j12773232738363_1_alg».proof.Proof.LibRows

noncomputable section

open scoped BigOperators

namespace Cert.EdgeSum

open Idealize.ShloMosaic Idealize.ShloMosaic.ValueIdx Cert.Rows

variable {N C M : Nat}

/-- The weighted sum over edges, entry by entry. -/
def edgeSum (hN : 0 < N) (z : EReal) (xw : (⟨2, ![N, C]⟩ : Shape).Idx → EReal) (src dst : IVec ⟨2, ![M, 1]⟩ 32)
    (wt : (⟨1, ![M]⟩ : Shape).Idx → EReal) : (⟨2, ![N, C]⟩ : Shape).Idx → EReal :=
  fun i => z + ∑ e : Fin M, if (dst (ix2 e (0 : Fin 1))).toInt = ((i 0).val : ℤ)
    then xw (ix2 (⟨min (src (ix2 e (0 : Fin 1))).toInt.toNat (N - 1), by omega⟩ : Fin N) (i 1)) * wt (ix1 e) else 0

/-- A length-M vector stood up as an M×1 column reads, at (e, 0), the vector at e. -/
theorem column_apply {α : Type} (x : (⟨1, ![M]⟩ : Shape).Idx → α)
    (h : (⟨1, ![M]⟩ : Shape).BroadcastsInDim ⟨2, ![M, 1]⟩ ![0]) (e : Fin M) :
    broadcastInDim ⟨2, ![M, 1]⟩ ![0] h x (ix2 e (0 : Fin 1)) = x (ix1 e) :=
  broadcastInDim_apply ![0] h x (ix2 e (0 : Fin 1)) (ix1 e) (fun a => match a with
    | ⟨0, _⟩ => by
        show e.val = if M = 1 then 0 else e.val
        split
        · have := e.isLt; omega
        · rfl)

/-- An M×1 column spread over C columns reads, at (e, k), the column at (e, 0). -/
theorem spreadColumn_apply {α : Type} (x : (⟨2, ![M, 1]⟩ : Shape).Idx → α)
    (h : (⟨2, ![M, 1]⟩ : Shape).BroadcastsInDim ⟨2, ![M, C]⟩ ![0, 1]) (e : Fin M) (k : Fin C) :
    broadcastInDim ⟨2, ![M, C]⟩ ![0, 1] h x (ix2 e k) = x (ix2 e (0 : Fin 1)) :=
  broadcastInDim_apply ![0, 1] h x (ix2 e k) (ix2 e (0 : Fin 1)) (fun a => match a with
    | ⟨0, _⟩ => by
        show e.val = if M = 1 then 0 else e.val
        split
        · have := e.isLt; omega
        · rfl
    | ⟨1, _⟩ => by show (0 : Nat) = if (1 : Nat) = 1 then 0 else _; rw [if_pos rfl])

/-- The host's spelling — gather the rows, multiply by the weights stood up as a column and spread over
    the columns, scatter-add into the constant array — is the weighted sum over edges. -/
theorem scatter_gather_eq (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (h0 : (⟨0, ![]⟩ : Shape).BroadcastsInDim ⟨2, ![N, C]⟩ ![])
    (h1 : (⟨1, ![M]⟩ : Shape).BroadcastsInDim ⟨2, ![M, 1]⟩ ![0])
    (h2 : (⟨2, ![M, 1]⟩ : Shape).BroadcastsInDim ⟨2, ![M, C]⟩ ![0, 1])
    (bits : BitVec 32) (xw : FVec Ideal ⟨2, ![N, C]⟩ .f32) (src dst : IVec ⟨2, ![M, 1]⟩ 32)
    (wt : FVec Ideal ⟨1, ![M]⟩ .f32) :
    Host.scatterAdd (F := Ideal) (scatter2 N C M wfs)
        (broadcastInDim ⟨2, ![N, C]⟩ ![] h0 (constant (F := Ideal) ⟨0, ![]⟩ .f32 bits)) dst
        (mulf (Host.gather (gather2 N C M wfg) xw src)
          (broadcastInDim ⟨2, ![M, C]⟩ ![0, 1] h2 (broadcastInDim ⟨2, ![M, 1]⟩ ![0] h1 wt)))
      = edgeSum hN (Ideal.ofBits .f32 bits) xw src dst wt := by
  funext i
  obtain ⟨n, k, rfl⟩ : ∃ (n : Fin N) (k : Fin C), i = ix2 n k := ⟨i 0, i 1, eq_ix2 i⟩
  show Ideal.hostScatterAdd (scatter2 N C M wfs) _ dst _ (ix2 n k) = _
  rw [scatterAdd2_apply]
  unfold edgeSum
  congr 1
  refine Finset.sum_congr rfl fun e _ => ?_
  show (if _ then mulf _ _ (ix2 e k) else 0) = _
  rw [show mulf (Host.gather (gather2 N C M wfg) xw src)
        (broadcastInDim ⟨2, ![M, C]⟩ ![0, 1] h2 (broadcastInDim ⟨2, ![M, 1]⟩ ![0] h1 wt)) (ix2 e k)
      = Host.gather (gather2 N C M wfg) xw src (ix2 e k)
        * broadcastInDim ⟨2, ![M, C]⟩ ![0, 1] h2 (broadcastInDim ⟨2, ![M, 1]⟩ ![0] h1 wt) (ix2 e k) from rfl,
    gather2_apply hN, spreadColumn_apply, column_apply]
  rfl

/-- A finite sum of real numbers, as extended reals, is a real number. -/
theorem sum_real {ι : Type*} (s : Finset ι) (f : ι → EReal) (hf : ∀ a ∈ s, ∃ r : ℝ, f a = (r : EReal)) :
    ∃ r : ℝ, ∑ a ∈ s, f a = (r : EReal) := by
  classical
  induction s using Finset.induction_on with
  | empty => exact ⟨0, by simp⟩
  | insert a s ha ih =>
    obtain ⟨r, hr⟩ := ih (fun b hb => hf b (Finset.mem_insert_of_mem hb))
    obtain ⟨q, hq⟩ := hf a (Finset.mem_insert_self a s)
    exact ⟨q + r, by rw [Finset.sum_insert ha, hr, hq, EReal.coe_add]⟩

/-- With a real initial value, a real table and real weights the weighted sum over edges is real. -/
theorem edgeSum_real (hN : 0 < N) (z : EReal) (hz : ∃ r : ℝ, z = (r : EReal))
    (xw : (⟨2, ![N, C]⟩ : Shape).Idx → EReal) (hxw : ∀ i, ∃ r : ℝ, xw i = (r : EReal))
    (src dst : IVec ⟨2, ![M, 1]⟩ 32) (wt : (⟨1, ![M]⟩ : Shape).Idx → EReal) (hwt : ∀ e, ∃ r : ℝ, wt e = (r : EReal))
    (i : (⟨2, ![N, C]⟩ : Shape).Idx) : ∃ r : ℝ, edgeSum hN z xw src dst wt i = (r : EReal) := by
  unfold edgeSum
  obtain ⟨z', rfl⟩ := hz
  obtain ⟨s, hs⟩ := sum_real Finset.univ (fun e : Fin M => if (dst (ix2 e (0 : Fin 1))).toInt = ((i 0).val : ℤ)
    then xw (ix2 (⟨min (src (ix2 e (0 : Fin 1))).toInt.toNat (N - 1), by omega⟩ : Fin N) (i 1)) * wt (ix1 e) else 0)
    (fun e _ => by
      dsimp only
      split
      · obtain ⟨a, ha⟩ := hxw (ix2 (⟨min (src (ix2 e (0 : Fin 1))).toInt.toNat (N - 1), by omega⟩ : Fin N) (i 1))
        obtain ⟨b, hb⟩ := hwt (ix1 e)
        exact ⟨a * b, by rw [ha, hb, EReal.coe_mul]⟩
      · exact ⟨0, by simp⟩)
  exact ⟨z' + s, by rw [hs, EReal.coe_add]⟩

end Cert.EdgeSum

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowsProduct.lean ====
/-
  A product of an M×K array with a K×N matrix as ONE function of the two arrays: entry (p, q) is row p of the left
  array times the matrix, at column q, and depends on no other row.  The host's dot_general of the plain dimension
  numbers is that function.  So when the rows are cut into consecutive blocks and each block is multiplied by the whole
  matrix, the blocks laid end to end are the whole product.
-/
import Idealize.ShloMosaic.Lib.ValueIdx
import Idealize.ShloMosaic.PureOps.Ideal.Laws
import proofs.«102224_j12773232738363_1_alg».proof.Proof.LibRowDot

noncomputable section

open scoped BigOperators

namespace Cert.RowsProduct

open Idealize.ShloMosaic Idealize.ShloMosaic.ValueIdx Cert.RowDot

/-- The whole product: entry i is (row (i 0) of x) · w at column (i 1). -/
def rowsTimes {M K N : Nat} (x : (⟨2, ![M, K]⟩ : Shape).Idx → EReal) (w : (⟨2, ![K, N]⟩ : Shape).Idx → EReal) :
    (⟨2, ![M, N]⟩ : Shape).Idx → EReal :=
  fun i => rowDot (rowOf x (i 0)) w (i 1)

/-- The host's product of the plain dimension numbers is the whole product. -/
theorem hostDot_eq_rowsTimes {M K N : Nat} (prec : Option ContractPrecision)
    (x : FVec Ideal (⟨2, ![M, K]⟩ : Shape) .f32) (w : FVec Ideal (⟨2, ![K, N]⟩ : Shape) .f32) :
    Host.dotGeneral (F := Ideal) (DotDims.plain M K N) prec x w = rowsTimes x w :=
  funext fun j => dotGeneral_plain_apply prec .single x w j

/-- The vector unit's product into zero of a block of rows, after the changes of float format that keep every value:
    entry j is row (j 0) of the block times the matrix at column (j 1). -/
theorem blockDot_apply {M K N : Nat} {ψ₁ ψ₂ : FTy} (prec : Option ContractPrecision) (h₁ : ψ₁.bits < FTy.f32.bits) (h₂ : ψ₂.bits < FTy.f32.bits)
    (a : FVec Ideal (⟨2, ![M, K]⟩ : Shape) .f32) (w : FVec Ideal (⟨2, ![K, N]⟩ : Shape) .f32) (j : (⟨2, ![M, N]⟩ : Shape).Idx) :
    matmul (DotDims.plain M K N) prec (truncf ψ₁ a h₁) (truncf ψ₂ w h₂)
        (constant (F := Ideal) ⟨2, ![M, N]⟩ .f32 0x00000000#32) j
      = rowDot (rowOf a (j 0)) w (j 1) :=
  matmul_plain_zero_apply prec (φ₁ := ψ₁) (φ₂ := ψ₂) a w j

end Cert.RowsProduct

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.Model.lean ====
/-
  The whole network as one function of its arguments.

  A convolution multiplies the features by the weights, sums the product's rows over the edges (each gathered
  row scaled by its edge's weight) and adds the bias row. Between convolutions the columns are normalised with
  their mean and a variance, scaled, shifted and rectified; the variance formula is a parameter, so that the
  same text serves the variance taken directly and the variance taken through the moments.
-/
import proofs.«102224_j12773232738363_1_alg».proof.Proof.Spec
import proofs.«102224_j12773232738363_1_alg».proof.Proof.LibEdgeSum
import proofs.«102224_j12773232738363_1_alg».proof.Proof.LibRowsProduct
import proofs.«102224_j12773232738363_1_alg».proof.Proof.LibRowBias

noncomputable section

namespace Cert.Gcn

open Idealize.ShloMosaic Idealize.ShloMosaic.ValueIdx Cert.RowBias Cert.RowsProduct Cert.EdgeSum

/-- There is at least one node. -/
theorem nodes_pos : 0 < 100000 := by decide

/-- A length-N vector as a 1×N row. -/
def asRow {N : Nat} (b : (⟨1, ![N]⟩ : Shape).Idx → EReal) : Mat 1 N := fun j => b (ix1 (j 1))

/-- One convolution: (x · W) summed over the edges into a zero array, plus the bias row. -/
def conv {K C : Nat} (x : Mat 100000 K) (W : Mat K C) (b : Mat 1 C) (src dst : IVec ⟨2, ![1700000, 1]⟩ 32)
    (wt : (⟨1, ![1700000]⟩ : Shape).Idx → EReal) : Mat 100000 C :=
  addRow (edgeSum nodes_pos (Ideal.ofBits .f32 0x00000000#32) (rowsTimes x W) src dst wt) b

/-- Normalise the columns with their mean and the variance var gives, scale, shift, rectify. -/
def normalised {C : Nat} (var : Mat 100000 C → Mat 1 C) (H : Mat 100000 C) (g be : Mat 1 C) : Mat 100000 C :=
  normRelu H (meanRow (colSum H)) (var H) g be

/-- Three convolutions, the first two normalised. -/
def model (var : Mat 100000 128 → Mat 1 128) (x : Mat 100000 128) (src dst : IVec ⟨2, ![1700000, 1]⟩ 32)
    (wt : (⟨1, ![1700000]⟩ : Shape).Idx → EReal)
    (W1 : Mat 128 128) (b1 g1 be1 : Mat 1 128) (W2 : Mat 128 128) (b2 g2 be2 : Mat 1 128)
    (W3 : Mat 128 64) (b3 : Mat 1 64) : Mat 100000 64 :=
  conv (normalised var (conv (normalised var (conv x W1 b1 src dst wt) g1 be1) W2 b2 src dst wt) g2 be2)
    W3 b3 src dst wt

end Cert.Gcn

end
-- ==== Proof.KernelKeeps.lean ====
/-
  No host operation and no region writes an argument array, so at every boundary between the program's
  segments an argument's buffer holds what it held at launch.
-/
import proofs.«102224_j12773232738363_1_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer none of them writes as it was. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem at3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

theorem at3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

theorem at4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

theorem at6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_keeps hostOps1
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

theorem at6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

theorem at6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

theorem at8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by host_keeps hostOps2
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

theorem at9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

theorem at11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := by host_keeps hostOps4
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

theorem at11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := by host_keeps hostOps4
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

theorem at11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := by host_keeps hostOps4
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := by host_keeps hostOps2
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

theorem at13_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := by host_keeps hostOps5
    _ = W10 m ρ c (Proc.devRef .tc main_arg10) := W11_of_ne m ρ c main_arg10 (by decide)
    _ = W9 m ρ c (Proc.devRef .tc main_arg10) := by host_keeps hostOps4
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

theorem at14_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := W13_of_ne m ρ c main_arg11 (by decide)
    _ = W11 m ρ c (Proc.devRef .tc main_arg11) := by host_keeps hostOps5
    _ = W10 m ρ c (Proc.devRef .tc main_arg11) := W11_of_ne m ρ c main_arg11 (by decide)
    _ = W9 m ρ c (Proc.devRef .tc main_arg11) := by host_keeps hostOps4
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := by host_keeps hostOps2
    _ = W5 m ρ c (Proc.devRef .tc main_arg11) := W6_of_ne m ρ c main_arg11 (by decide)
    _ = W4 m ρ c (Proc.devRef .tc main_arg11) := by host_keeps hostOps1
    _ = W3 m ρ c (Proc.devRef .tc main_arg11) := W4_of_ne m ρ c main_arg11 (by decide)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = m ((c : Thread nD τ).loc main_arg11) := rfl

end Cert.KernelIdeal.Keeps

end
-- ==== Proof.KernelKeepsEdges.lean ====
/-
  The edge lists and the edge weights are computed before the first region and never written again; each
  aggregated array is read once more, after the region that sums its columns, and is unchanged by it.
-/
import proofs.«102224_j12773232738363_1_alg».proof.Proof.Gen.KernelIdeal.Frame

set_option maxRecDepth 16384

noncomputable section

namespace Cert.KernelIdeal.KeepsEdges

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer none of them writes as it was. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem at4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem at9_v3 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem at14_v3 (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := by host_keeps hostOps5
    _ = W10 m ρ c (Proc.devRef .tc main_v3) := W11_of_ne m ρ c main_v3 (by decide)
    _ = W9 m ρ c (Proc.devRef .tc main_v3) := by host_keeps hostOps4
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem at4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem at9_v6 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem at14_v6 (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := by host_keeps hostOps5
    _ = W10 m ρ c (Proc.devRef .tc main_v6) := W11_of_ne m ρ c main_v6 (by decide)
    _ = W9 m ρ c (Proc.devRef .tc main_v6) := by host_keeps hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem at4_v29 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem at9_v29 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keeps hostOps2
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

theorem at14_v29 (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := by host_keeps hostOps5
    _ = W10 m ρ c (Proc.devRef .tc main_v29) := W11_of_ne m ρ c main_v29 (by decide)
    _ = W9 m ρ c (Proc.devRef .tc main_v29) := by host_keeps hostOps4
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keeps hostOps2
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

theorem at7_v43 (c : Dev nD) : W7 m ρ c (Proc.devRef .tc main_v43) = W5 m ρ c (Proc.devRef .tc main_v43) :=
  calc W7 m ρ c (Proc.devRef .tc main_v43)
    _ = W6 m ρ c (Proc.devRef .tc main_v43) := by host_keeps hostOps2
    _ = W5 m ρ c (Proc.devRef .tc main_v43) := (W6_arr m ρ c 0).trans (((dat1 (V5 m ρ) c).arrAt_in 0 rfl _).trans (A_eq1 (V5 m ρ) c 0))

theorem at12_v69 (c : Dev nD) : W12 m ρ c (Proc.devRef .tc main_v69) = W10 m ρ c (Proc.devRef .tc main_v69) :=
  calc W12 m ρ c (Proc.devRef .tc main_v69)
    _ = W11 m ρ c (Proc.devRef .tc main_v69) := by host_keeps hostOps5
    _ = W10 m ρ c (Proc.devRef .tc main_v69) := (W11_arr m ρ c 0).trans (((dat4 (V10 m ρ) c).arrAt_in 0 rfl _).trans (A_eq4 (V10 m ρ) c 0))

end Cert.KernelIdeal.KeepsEdges

end
-- ==== Proof.KernelHost.lean ====
/-
  The host stretches between the regions, read as values.

  Before each of the three summing regions the host gathers the rows of the product along the edges' source
  words (a negative word counts from the end), scales each gathered row by its edge's weight and adds the rows
  up at the edges' target words, starting from zero; it also recasts the layer's bias vector as a row.  Before
  each of the two normalising regions it divides the row of column sums and the row of column sums of squares
  by the number of rows, takes the variance as the mean of the squares less the square of the mean, and recasts
  the bias, scale and shift vectors as rows.  Each statement holds for any contents of the buffers the stretch
  reads, and names only those buffers.
-/
import proofs.«102224_j12773232738363_1_alg».proof.Proof.Gen.KernelIdeal.Frame
import proofs.«102224_j12773232738363_1_alg».proof.Proof.Spec
import proofs.«102224_j12773232738363_1_alg».proof.Proof.Model
import proofs.«102224_j12773232738363_1_alg».proof.Proof.LibEdgeSum
import proofs.«102224_j12773232738363_1_alg».proof.Proof.LibRows
import proofs.«102224_j12773232738363_1_alg».proof.Proof.LibRowBias
import Idealize.ShloMosaic.Lib.StableHlo.Run

noncomputable section

namespace Cert.KernelIdeal.HostStages

open Cert.KernelIdeal Cert.KernelIdeal.Gen Idealize.ShloMosaic Idealize.ShloMosaic.TcCoe Idealize.SL.Sem
open Idealize.ShloMosaic.ValueIdx Idealize.ShloMosaic.StableHlo

variable (W : Valuation τ sig (Elt Ideal))

/-- The column of source rows: a negative word counts from the end (100000 is added to it), and the words are stood
    up as a column. -/
def srcCol (v3 : IVec S1700000 32) : IVec S1700000x1 32 :=
  broadcastInDim S1700000x1 ![0] bcast_S1700000_S1700000x1_0
    (select (cmpi .slt v3 (broadcastInDim S1700000 ![] bcast_S_S1700000 (constantI S_ 32 0#32)))
      (addi v3 (broadcastInDim S1700000 ![] bcast_S_S1700000 (constantI S_ 32 100000#32))) v3)

/-- The column of target rows: the words stood up as a column. -/
def dstCol (v6 : IVec S1700000 32) : IVec S1700000x1 32 :=
  broadcastInDim S1700000x1 ![0] bcast_S1700000_S1700000x1_0 v6

/-- The printed gather of 128-column rows is the gather of whole rows at a column of start words. -/
theorem gather128_eq : gather_S100000x128_S1700000x1_S1700000x128_1_0_n_n_0_1_1128
    = Cert.Rows.gather2 100000 128 1700000 gather_S100000x128_S1700000x1_S1700000x128_1_0_n_n_0_1_1128_wf := rfl

/-- The printed accumulating scatter of 128-column rows is the scatter of whole rows at a column of start words. -/
theorem scatter128_eq : scatter_S100000x128_S1700000x1_S1700000x128_1_0_0_1
    = Cert.Rows.scatter2 100000 128 1700000 scatter_S100000x128_S1700000x1_S1700000x128_1_0_0_1_wf := rfl

/-- The printed gather of 64-column rows is the gather of whole rows at a column of start words. -/
theorem gather64_eq : gather_S100000x64_S1700000x1_S1700000x64_1_0_n_n_0_1_164
    = Cert.Rows.gather2 100000 64 1700000 gather_S100000x64_S1700000x1_S1700000x64_1_0_n_n_0_1_164_wf := rfl

/-- The printed accumulating scatter of 64-column rows is the scatter of whole rows at a column of start words. -/
theorem scatter64_eq : scatter_S100000x64_S1700000x1_S1700000x64_1_0_0_1
    = Cert.Rows.scatter2 100000 64 1700000 scatter_S100000x64_S1700000x1_S1700000x64_1_0_0_1_wf := rfl

/-- A length-N vector recast as a 1×N row is the row of its entries. -/
theorem reshape_row {N : Nat} (x : (⟨1, ![N]⟩ : Shape).Idx → EReal) (h : (⟨1, ![N]⟩ : Shape).ShapeCasts ⟨2, ![1, N]⟩) :
    shapeCast ⟨2, ![1, N]⟩ x h = Cert.Gcn.asRow x := by
  funext j
  obtain ⟨p, q, rfl⟩ : ∃ (p : Fin 1) (q : Fin N), j = ix2 p q := ⟨j 0, j 1, eq_ix2 j⟩
  obtain rfl : p = 0 := Subsingleton.elim _ _
  exact Cert.RowBias.asRow_apply x h q

/-! ## Before region 1: the first layer's sum over the edges and its bias row -/

theorem agg1 : StableHlo.after (hostOps1 (F := Ideal)) W (Proc.devRef .tc main_v43)
    = Cert.EdgeSum.edgeSum Cert.Gcn.nodes_pos (Ideal.ofBits .f32 0x00000000#32) (W (Proc.devRef .tc main_v30))
        (srcCol (W (Proc.devRef .tc main_v3))) (dstCol (W (Proc.devRef .tc main_v6))) (W (Proc.devRef .tc main_v29)) := by
  after_results_simp
  rw [gather128_eq, scatter128_eq]
  exact Cert.EdgeSum.scatter_gather_eq Cert.Gcn.nodes_pos _ _ bcast_S_S100000x128 bcast_S1700000_S1700000x1_0
    bcast_S1700000x1_S1700000x128_0_1 0x00000000#32 (W (Proc.devRef .tc main_v30))
    (srcCol (W (Proc.devRef .tc main_v3))) (dstCol (W (Proc.devRef .tc main_v6))) (W (Proc.devRef .tc main_v29))

theorem bias1 : StableHlo.after (hostOps1 (F := Ideal)) W (Proc.devRef .tc main_v44)
    = Cert.Gcn.asRow (W (Proc.devRef .tc main_arg3)) := by
  after_results
  exact reshape_row (W (Proc.devRef .tc main_arg3)) shapeCasts_S128_S1x128

/-! ## Before region 2: the column means and variances from the sums, and the three rows -/

theorem mean2 : StableHlo.after (hostOps2 (F := Ideal)) W (Proc.devRef .tc main_v47)
    = Cert.Gcn.meanRow (W (Proc.devRef .tc main_v45_0)) := by
  after_results
  rfl

theorem var2 : StableHlo.after (hostOps2 (F := Ideal)) W (Proc.devRef .tc main_v51)
    = Cert.Gcn.varOfMoments (W (Proc.devRef .tc main_v45_0)) (W (Proc.devRef .tc main_v45_1)) := by
  after_results
  rfl

theorem bias2 : StableHlo.after (hostOps2 (F := Ideal)) W (Proc.devRef .tc main_v52)
    = Cert.Gcn.asRow (W (Proc.devRef .tc main_arg3)) := by
  after_results
  exact reshape_row (W (Proc.devRef .tc main_arg3)) shapeCasts_S128_S1x128

theorem scale2 : StableHlo.after (hostOps2 (F := Ideal)) W (Proc.devRef .tc main_v53)
    = Cert.Gcn.asRow (W (Proc.devRef .tc main_arg4)) := by
  after_results
  exact reshape_row (W (Proc.devRef .tc main_arg4)) shapeCasts_S128_S1x128

theorem shift2 : StableHlo.after (hostOps2 (F := Ideal)) W (Proc.devRef .tc main_v54)
    = Cert.Gcn.asRow (W (Proc.devRef .tc main_arg5)) := by
  after_results
  exact reshape_row (W (Proc.devRef .tc main_arg5)) shapeCasts_S128_S1x128

/-! ## Before region 4: the second layer's sum over the edges and its bias row -/

theorem agg4 : StableHlo.after (hostOps4 (F := Ideal)) W (Proc.devRef .tc main_v69)
    = Cert.EdgeSum.edgeSum Cert.Gcn.nodes_pos (Ideal.ofBits .f32 0x00000000#32) (W (Proc.devRef .tc main_v56))
        (srcCol (W (Proc.devRef .tc main_v3))) (dstCol (W (Proc.devRef .tc main_v6))) (W (Proc.devRef .tc main_v29)) := by
  after_results_simp
  rw [gather128_eq, scatter128_eq]
  exact Cert.EdgeSum.scatter_gather_eq Cert.Gcn.nodes_pos _ _ bcast_S_S100000x128 bcast_S1700000_S1700000x1_0
    bcast_S1700000x1_S1700000x128_0_1 0x00000000#32 (W (Proc.devRef .tc main_v56))
    (srcCol (W (Proc.devRef .tc main_v3))) (dstCol (W (Proc.devRef .tc main_v6))) (W (Proc.devRef .tc main_v29))

theorem bias4 : StableHlo.after (hostOps4 (F := Ideal)) W (Proc.devRef .tc main_v70)
    = Cert.Gcn.asRow (W (Proc.devRef .tc main_arg7)) := by
  after_results
  exact reshape_row (W (Proc.devRef .tc main_arg7)) shapeCasts_S128_S1x128

/-! ## Before region 5: the column means and variances from the sums, and the three rows -/

theorem mean5 : StableHlo.after (hostOps5 (F := Ideal)) W (Proc.devRef .tc main_v73)
    = Cert.Gcn.meanRow (W (Proc.devRef .tc main_v71_0)) := by
  after_results
  rfl

theorem var5 : StableHlo.after (hostOps5 (F := Ideal)) W (Proc.devRef .tc main_v77)
    = Cert.Gcn.varOfMoments (W (Proc.devRef .tc main_v71_0)) (W (Proc.devRef .tc main_v71_1)) := by
  after_results
  rfl

theorem bias5 : StableHlo.after (hostOps5 (F := Ideal)) W (Proc.devRef .tc main_v78)
    = Cert.Gcn.asRow (W (Proc.devRef .tc main_arg7)) := by
  after_results
  exact reshape_row (W (Proc.devRef .tc main_arg7)) shapeCasts_S128_S1x128

theorem scale5 : StableHlo.after (hostOps5 (F := Ideal)) W (Proc.devRef .tc main_v79)
    = Cert.Gcn.asRow (W (Proc.devRef .tc main_arg8)) := by
  after_results
  exact reshape_row (W (Proc.devRef .tc main_arg8)) shapeCasts_S128_S1x128

theorem shift5 : StableHlo.after (hostOps5 (F := Ideal)) W (Proc.devRef .tc main_v80)
    = Cert.Gcn.asRow (W (Proc.devRef .tc main_arg9)) := by
  after_results
  exact reshape_row (W (Proc.devRef .tc main_arg9)) shapeCasts_S128_S1x128

/-! ## Before region 7: the third layer's sum over the edges (64 columns) and its bias row -/

theorem agg7 : StableHlo.after (hostOps7 (F := Ideal)) W (Proc.devRef .tc main_v95)
    = Cert.EdgeSum.edgeSum Cert.Gcn.nodes_pos (Ideal.ofBits .f32 0x00000000#32) (W (Proc.devRef .tc main_v82))
        (srcCol (W (Proc.devRef .tc main_v3))) (dstCol (W (Proc.devRef .tc main_v6))) (W (Proc.devRef .tc main_v29)) := by
  after_results_simp
  rw [gather64_eq, scatter64_eq]
  exact Cert.EdgeSum.scatter_gather_eq Cert.Gcn.nodes_pos _ _ bcast_S_S100000x64 bcast_S1700000_S1700000x1_0
    bcast_S1700000x1_S1700000x64_0_1 0x00000000#32 (W (Proc.devRef .tc main_v82))
    (srcCol (W (Proc.devRef .tc main_v3))) (dstCol (W (Proc.devRef .tc main_v6))) (W (Proc.devRef .tc main_v29))

theorem bias7 : StableHlo.after (hostOps7 (F := Ideal)) W (Proc.devRef .tc main_v96)
    = Cert.Gcn.asRow (W (Proc.devRef .tc main_arg11)) := by
  after_results
  exact reshape_row (W (Proc.devRef .tc main_arg11)) shapeCasts_S64_S1x64

end Cert.KernelIdeal.HostStages

end
-- ==== Proof.RegionLinear.lean ====
/-
  The three linear regions and the bias region, from blocks to whole arrays.

  Each of these regions walks the rows of its input array in twenty consecutive blocks of 5000 rows.  A linear
  region multiplies the block by the whole weight matrix; the bias region adds one row to every row of the block.
  Entry (p, q) of either result depends only on row p of the input, so the twenty blocks written back, laid end to
  end, are one function of the whole input array: the whole product, or the whole array with the row added.
-/
import proofs.«102224_j12773232738363_1_alg».proof.Proof.Gen.KernelIdeal.Frame
import proofs.«102224_j12773232738363_1_alg».proof.Proof.LibRowsProduct
import proofs.«102224_j12773232738363_1_alg».proof.Proof.LibRowBias
import Idealize.ShloMosaic.Lib.Pipeline.Value

set_option maxRecDepth 16384

noncomputable section

open scoped BigOperators

namespace Cert.KernelIdeal.RegionLinear

open Cert.KernelIdeal Cert.KernelIdeal.Gen Idealize.ShloMosaic Idealize.ShloMosaic.TcCoe Idealize.SL.Sem
open Idealize.ShloMosaic.ValueIdx
open Idealize.ShloMosaic.Pipeline (Dat)
open Cert.RowDot Cert.RowsProduct

variable (V : (c : Dev nD) → (b : Ref sig .tc) → Buf (Elt Ideal) ((c : Thread nD τ).loc b))

/-- The zero offsets of a whole-block rectangle, however spelt. -/
theorem zeroOffsets : (![0, 0] : Fin 2 → Nat) = fun _ => 0 := funext fun a => by fin_cases a <;> rfl

/-- A row-times-matrix entry depends only on the row's entries and the matrix's column. -/
theorem rowDot_congr {K N N' : Nat} {r r' : Fin K → EReal} {W : (⟨2, ![K, N]⟩ : Shape).Idx → EReal}
    {W' : (⟨2, ![K, N']⟩ : Shape).Idx → EReal} {q : Fin N} {q' : Fin N'}
    (hr : ∀ k, r k = r' k) (hW : ∀ k, W (ix2 k q) = W' (ix2 k q')) : rowDot r W q = rowDot r' W' q' := by
  unfold rowDot
  exact Finset.sum_congr rfl fun k _ => by rw [hr k, hW k]

/-! ## Region 0: 100000×128 times 128×128 -/

/-- The body's payload at an entry: row (j 0) of the block times the weight matrix, at column (j 1). -/
theorem pay0_apply (x0 : Vec Ideal S5000x128 .f32) (x1 : Vec Ideal S128x128 .f32) (j : S5000x128.Idx) :
    k0_pay1 x0 x1 j = rowDot (rowOf x0 (j 0)) x1 (j 1) :=
  blockDot_apply none bitsLt_bf16_f32 bitsLt_bf16_f32 x0 x1 j

/-- The block indices over the twenty points: the input block moves with the output block down the rows, the
    weight matrix's block stays, and the output's block index on the rows is below twenty. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product. -/
theorem flushed0_eq (c : Dev nD) (t : Fin cfg0.N) :
    (dat0 (F := Ideal) V c).flushed 2 t
      = ((cfg0.win 2).blk t).view.read (Elt Ideal) (rowsTimes (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := idx_facts0 t
  funext j
  show k0_pay1 (iblk0 V c 0 t) (iblk0 V c 1 t) j
    = rowsTimes (V c main_arg0) (V c main_arg2) (((cfg0.win 2).blk t).view.emb j)
  refine (pay0_apply _ _ j).trans ?_
  show _ = rowDot (rowOf (V c main_arg0) ((((cfg0.win 2).blk t).view.emb j) 0)) (V c main_arg2)
    ((((cfg0.win 2).blk t).view.emb j) 1)
  refine rowDot_congr (fun k => ?_) (fun k => ?_)
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (j 1)))
      = V c main_arg2 (ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r lies in block r / 5000: the twenty blocks of 5000 rows fill the 100000 rows. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- REGION 0: the output array after the region is the whole product of the input array with the weight matrix. -/
theorem product0 (c : Dev nD) :
    (dat0 (F := Ideal) V c).arrAt 2 cfg0.N = rowsTimes (V c main_arg0) (V c main_arg2) :=
  (dat0 (F := Ideal) V c).arrAt_eq_of_cover 2 (rowsTimes (V c main_arg0) (V c main_arg2))
    (fun t _ => flushed0_eq V c t) covered0

/-! ## Region 3: 100000×128 times 128×128, the block first recast to its own shape -/

/-- The body's payload at an entry: row (j 0) of the block times the weight matrix, at column (j 1). -/
theorem pay3_apply (x0 : Vec Ideal S5000x128 .f32) (x1 : Vec Ideal S128x128 .f32) (j : S5000x128.Idx) :
    k3_pay1 x0 x1 j = rowDot (rowOf x0 (j 0)) x1 (j 1) := by
  have h : shapeCast S5000x128 x0 shapeCasts_S5000x128_S5000x128 = x0 := shapeCast_self x0 _
  unfold k3_pay1
  simp only [h]
  exact blockDot_apply none bitsLt_bf16_f32 bitsLt_bf16_f32 x0 x1 j

/-- The block indices over the twenty points: the input block moves with the output block down the rows, the
    weight matrix's block stays, and the output's block index on the rows is below twenty. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the twenty row blocks is some point's. -/
theorem idx_onto3 : ∀ q0 : Fin 20, ∃ t : Fin cfg3.N, win3_2.index t = ![q0.val, 0] :=
  (by decide +kernel : ∀ q0 : Fin 20, ∃ t : Fin grid3.N, win3_2.index t = ![q0.val, 0])

/-- What point t writes back is block t of the whole product. -/
theorem flushed3_eq (c : Dev nD) (t : Fin cfg3.N) :
    (dat3 (F := Ideal) V c).flushed 2 t
      = ((cfg3.win 2).blk t).view.read (Elt Ideal) (rowsTimes (V c main_v55) (V c main_arg6)) := by
  show (cfg3.win 2).cut (grid3.coords t) ((dat3 (F := Ideal) V c).after 2 t) = _
  rw [after3_2]
  unfold out3_2
  rw [View.canon_unit_zero zeroOffsets]
  simp only [View.ld_unit_zero (S := S5000x128) zeroOffsets, View.ld_unit_zero (S := S128x128) zeroOffsets]
  obtain ⟨e0, e1, e2, e3, e4, e5⟩ := idx_facts3 t
  funext j
  show k3_pay1 (iblk3 V c 0 t) (iblk3 V c 1 t) j
    = rowsTimes (V c main_v55) (V c main_arg6) (((cfg3.win 2).blk t).view.emb j)
  refine (pay3_apply _ _ j).trans ?_
  show _ = rowDot (rowOf (V c main_v55) ((((cfg3.win 2).blk t).view.emb j) 0)) (V c main_arg6)
    ((((cfg3.win 2).blk t).view.emb j) 1)
  refine rowDot_congr (fun k => ?_) (fun k => ?_)
  · show V c main_v55 (((cfg3.win 0).blk t).view.emb (ix2 (j 0) k))
      = V c main_v55 (ix2 ((((cfg3.win 2).blk t).view.emb j) 0) k)
    refine congrArg _ (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * k.val = k.val
      omega
  · show V c main_arg6 (((cfg3.win 1).blk t).view.emb (ix2 k (j 1)))
      = V c main_arg6 (ix2 k ((((cfg3.win 2).blk t).view.emb j) 1))
    refine congrArg _ (funext fun a => Fin.ext ?_)
    match a with
    | ⟨0, _⟩ =>
      show win3_1.index t (0 : Fin 2) * 128 + 1 * k.val = k.val
      omega
    | ⟨1, _⟩ =>
      show win3_1.index t (1 : Fin 2) * 128 + 1 * (j 1).val = win3_2.index t (1 : Fin 2) * 128 + 1 * (j 1).val
      omega

/-- An index of the array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v56).slice (win3_2.rect t)).set ↔ _
  rw [View.set_slice_whole, Rect.mem_set_unit]
  exact Iff.rfl

/-- Row r lies in block r / 5000: the twenty blocks of 5000 rows fill the 100000 rows. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- REGION 3: the output array after the region is the whole product of the input array with the weight matrix. -/
theorem product3 (c : Dev nD) :
    (dat3 (F := Ideal) V c).arrAt 2 cfg3.N = rowsTimes (V c main_v55) (V c main_arg6) :=
  (dat3 (F := Ideal) V c).arrAt_eq_of_cover 2 (rowsTimes (V c main_v55) (V c main_arg6))
    (fun t _ => flushed3_eq V c t) covered3

/-! ## Region 6: 100000×128 times 128×64, the block first recast to its own shape -/

/-- The body's payload at an entry: row (j 0) of the block times the weight matrix, at column (j 1). -/
theorem pay6_apply (x0 : Vec Ideal S5000x128 .f32) (x1 : Vec Ideal S128x64 .f32) (j : S5000x64.Idx) :
    k6_pay1 x0 x1 j = rowDot (rowOf x0 (j 0)) x1 (j 1) := by
  have h : shapeCast S5000x128 x0 shapeCasts_S5000x128_S5000x128 = x0 := shapeCast_self x0 _
  unfold k6_pay1
  simp only [h]
  exact blockDot_apply none bitsLt_bf16_f32 bitsLt_bf16_f32 x0 x1 j

/-- The block indices over the twenty points: the input block moves with the output block down the rows, the
    weight matrix's block stays, and the output's block index on the rows is below twenty. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 19 :=
  (by decide +kernel : ∀ t : Fin grid6.N, _)

/-- Every one of the twenty row blocks is some point's. -/
theorem idx_onto6 : ∀ q0 : Fin 20, ∃ t : Fin cfg6.N, win6_2.index t = ![q0.val, 0] :=
  (by decide +kernel : ∀ q0 : Fin 20, ∃ t : Fin grid6.N, win6_2.index t = ![q0.val, 0])

/-- What point t writes back is block t of the whole product. -/
theorem flushed6_eq (c : Dev nD) (t : Fin cfg6.N) :
    (dat6 (F := Ideal) V c).flushed 2 t
      = ((cfg6.win 2).blk t).view.read (Elt Ideal) (rowsTimes (V c main_v81) (V c main_arg10)) := by
  show (cfg6.win 2).cut (grid6.coords t) ((dat6 (F := Ideal) V c).after 2 t) = _
  rw [after6_2]
  unfold out6_2
  rw [View.canon_unit_zero zeroOffsets]
  simp only [View.ld_unit_zero (S := S5000x128) zeroOffsets, View.ld_unit_zero (S := S128x64) zeroOffsets]
  obtain ⟨e0, e1, e2, e3, e4, e5⟩ := idx_facts6 t
  funext j
  show k6_pay1 (iblk6 V c 0 t) (iblk6 V c 1 t) j
    = rowsTimes (V c main_v81) (V c main_arg10) (((cfg6.win 2).blk t).view.emb j)
  refine (pay6_apply _ _ j).trans ?_
  show _ = rowDot (rowOf (V c main_v81) ((((cfg6.win 2).blk t).view.emb j) 0)) (V c main_arg10)
    ((((cfg6.win 2).blk t).view.emb j) 1)
  refine rowDot_congr (fun k => ?_) (fun k => ?_)
  · show V c main_v81 (((cfg6.win 0).blk t).view.emb (ix2 (j 0) k))
      = V c main_v81 (ix2 ((((cfg6.win 2).blk t).view.emb j) 0) k)
    refine congrArg _ (funext fun a => Fin.ext ?_)
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 128 + 1 * k.val = k.val
      omega
  · show V c main_arg10 (((cfg6.win 1).blk t).view.emb (ix2 k (j 1)))
      = V c main_arg10 (ix2 k ((((cfg6.win 2).blk t).view.emb j) 1))
    refine congrArg _ (funext fun a => Fin.ext ?_)
    match a with
    | ⟨0, _⟩ =>
      show win6_1.index t (0 : Fin 2) * 128 + 1 * k.val = k.val
      omega
    | ⟨1, _⟩ =>
      show win6_1.index t (1 : Fin 2) * 64 + 1 * (j 1).val = win6_2.index t (1 : Fin 2) * 64 + 1 * (j 1).val
      omega

/-- An index of the array is in point t's block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v82).slice (win6_2.rect t)).set ↔ _
  rw [View.set_slice_whole, Rect.mem_set_unit]
  exact Iff.rfl

/-- Row r lies in block r / 5000: the twenty blocks of 5000 rows fill the 100000 rows. -/
theorem covered6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 64 ≤ (i 1).val ∧ (i 1).val < win6_2.index t (1 : Fin 2) * 64 + 64
    omega

/-- REGION 6: the output array after the region is the whole product of the input array with the weight matrix. -/
theorem product6 (c : Dev nD) :
    (dat6 (F := Ideal) V c).arrAt 2 cfg6.N = rowsTimes (V c main_v81) (V c main_arg10) :=
  (dat6 (F := Ideal) V c).arrAt_eq_of_cover 2 (rowsTimes (V c main_v81) (V c main_arg10))
    (fun t _ => flushed6_eq V c t) covered6

/-! ## Region 7: the 1×64 bias row added to every row of the 100000×64 array -/

/-- "A plus the row b" at an entry depends only on A's entry there and the row's entry of that column. -/
theorem addRow_congr {M M' N N' : Nat} {A : (⟨2, ![M, N]⟩ : Shape).Idx → EReal} {b : (⟨2, ![1, N]⟩ : Shape).Idx → EReal}
    {A' : (⟨2, ![M', N']⟩ : Shape).Idx → EReal} {b' : (⟨2, ![1, N']⟩ : Shape).Idx → EReal}
    {j : (⟨2, ![M, N]⟩ : Shape).Idx} {i : (⟨2, ![M', N']⟩ : Shape).Idx}
    (hA : A j = A' i) (hb : b (ix2 0 (j 1)) = b' (ix2 0 (i 1))) : Cert.RowBias.addRow A b j = Cert.RowBias.addRow A' b' i := by
  unfold Cert.RowBias.addRow
  rw [hA, hb]

/-- The body's payload: the block plus the bias row on every row. -/
theorem pay7_eq (x0 : Vec Ideal S5000x64 .f32) (x1 : Vec Ideal S1x64 .f32) :
    k7_pay1 x0 x1 = Cert.RowBias.addRow x0 x1 :=
  Cert.RowBias.addf_spread_eq x0 x1 shapeCasts_S5000x64_S5000x64 shapeCasts_S1x64_S1x64 broadcasts_S1x64_S5000x64

/-- The block indices over the twenty points: the input block moves with the output block down the rows, the
    bias row's block stays, and the output's block index on the rows is below twenty. -/
theorem idx_facts7 : ∀ t : Fin cfg7.N, win7_0.index t (0 : Fin 2) = win7_2.index t (0 : Fin 2)
    ∧ win7_0.index t (1 : Fin 2) = win7_2.index t (1 : Fin 2)
    ∧ win7_1.index t (0 : Fin 2) = 0
    ∧ win7_1.index t (1 : Fin 2) = 0
    ∧ win7_2.index t (1 : Fin 2) = 0
    ∧ win7_2.index t (0 : Fin 2) ≤ 19 :=
  (by decide +kernel : ∀ t : Fin grid7.N, _)

/-- Every one of the twenty row blocks is some point's. -/
theorem idx_onto7 : ∀ q0 : Fin 20, ∃ t : Fin cfg7.N, win7_2.index t = ![q0.val, 0] :=
  (by decide +kernel : ∀ q0 : Fin 20, ∃ t : Fin grid7.N, win7_2.index t = ![q0.val, 0])

/-- What point t writes back is block t of the whole array with the bias row added. -/
theorem flushed7_eq (c : Dev nD) (t : Fin cfg7.N) :
    (dat7 (F := Ideal) V c).flushed 2 t
      = ((cfg7.win 2).blk t).view.read (Elt Ideal) (Cert.RowBias.addRow (V c main_v95) (V c main_v96)) := by
  show (cfg7.win 2).cut (grid7.coords t) ((dat7 (F := Ideal) V c).after 2 t) = _
  rw [after7_2]
  unfold out7_2
  rw [View.canon_unit_zero zeroOffsets]
  simp only [View.ld_unit_zero (S := S5000x64) zeroOffsets, View.ld_unit_zero (S := S1x64) zeroOffsets]
  obtain ⟨e0, e1, e2, e3, e4, e5⟩ := idx_facts7 t
  funext j
  show k7_pay1 (iblk7 V c 0 t) (iblk7 V c 1 t) j
    = Cert.RowBias.addRow (V c main_v95) (V c main_v96) (((cfg7.win 2).blk t).view.emb j)
  refine (congrFun (pay7_eq _ _) j).trans ?_
  refine addRow_congr ?_ ?_
  · show V c main_v95 (((cfg7.win 0).blk t).view.emb j) = V c main_v95 (((cfg7.win 2).blk t).view.emb j)
    refine congrArg _ (funext fun a => Fin.ext ?_)
    match a with
    | ⟨0, _⟩ =>
      show win7_0.index t (0 : Fin 2) * 5000 + 1 * (j 0).val = win7_2.index t (0 : Fin 2) * 5000 + 1 * (j 0).val
      omega
    | ⟨1, _⟩ =>
      show win7_0.index t (1 : Fin 2) * 64 + 1 * (j 1).val = win7_2.index t (1 : Fin 2) * 64 + 1 * (j 1).val
      omega
  · show V c main_v96 (((cfg7.win 1).blk t).view.emb (ix2 0 (j 1)))
      = V c main_v96 (ix2 0 ((((cfg7.win 2).blk t).view.emb j) 1))
    refine congrArg _ (funext fun a => Fin.ext ?_)
    match a with
    | ⟨0, _⟩ =>
      show win7_1.index t (0 : Fin 2) * 1 + 1 * 0 = 0
      omega
    | ⟨1, _⟩ =>
      show win7_1.index t (1 : Fin 2) * 64 + 1 * (j 1).val = win7_2.index t (1 : Fin 2) * 64 + 1 * (j 1).val
      omega

/-- An index of the array is in point t's block iff each coordinate is in the block's range on its axis. -/
theorem mem_blk7 (t : Fin cfg7.N) (i : S100000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v97).slice (win7_2.rect t)).set ↔ _
  rw [View.set_slice_whole, Rect.mem_set_unit]
  exact Iff.rfl

/-- Row r lies in block r / 5000: the twenty blocks of 5000 rows fill the 100000 rows. -/
theorem covered7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  obtain ⟨t, ht⟩ := idx_onto7 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk7]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 64 ≤ (i 1).val ∧ (i 1).val < win7_2.index t (1 : Fin 2) * 64 + 64
    omega

/-- REGION 7: the output array after the region is the input array with the bias row added to every row. -/
theorem biased7 (c : Dev nD) :
    (dat7 (F := Ideal) V c).arrAt 2 cfg7.N = Cert.RowBias.addRow (V c main_v95) (V c main_v96) :=
  (dat7 (F := Ideal) V c).arrAt_eq_of_cover 2 (Cert.RowBias.addRow (V c main_v95) (V c main_v96))
    (fun t _ => flushed7_eq V c t) covered7

end Cert.KernelIdeal.RegionLinear

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.RegionStats.lean ====
/-
  The column statistics of a matrix with a bias row, accumulated block by block.

  The region walks the 100000 × 128 matrix h in 20 blocks of 5000 rows.  It keeps two 1 × 128 rows.  At the first
  block both rows are set to zero; at every block the first row receives, column by column, the sum over the
  block's rows of h(p, q) + b(0, q), and the second row the sum of the squares (h(p, q) + b(0, q))².  Addition of
  extended reals is associative and commutative and 0 + x = x, so after the block number t the first row holds the
  sum over the rows p < 5000 · (t + 1), and after the last block the sum over all the rows: the column sums of
  "h plus the row b on every row", and of its entrywise square.  The two rows' windows never move, so what the
  last block leaves is what the arrays hold after the region.
-/
import proofs.«102224_j12773232738363_1_alg».proof.Proof.Gen.KernelIdeal.Frame
import proofs.«102224_j12773232738363_1_alg».proof.Proof.Spec
import proofs.«102224_j12773232738363_1_alg».proof.Proof.LibRowBias
import proofs.«102224_j12773232738363_1_alg».proof.Proof.LibBlockSum
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionStats

open Cert.KernelIdeal Cert.KernelIdeal.Gen

theorem hz : (![0, 0] : Fin 2 → Nat) = fun _ => 0 := funext fun a => by fin_cases a <;> rfl

section Pieces

variable {F : FTy → Type} [FloatOps F]

/-- After a block that is not the first, the first row holds the payload of the sums over what it held. -/
theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S5000x128) hz,
    View.ld_unit_zero (S := S1x128) hz]

/-- After a block that is not the first, the second row holds the payload of the sums of squares over what it held. -/
theorem out1_B_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S5000x128) hz,
    View.ld_unit_zero (S := S1x128) hz]

/-- After the first block the first row holds the payload of the sums over the zero row it has just been set to. -/
theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- After the first block the second row holds the payload of the sums of squares over the zero row it has just been
    set to. -/
theorem out1_A_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- After a block that is not the first, the first row holds the payload of the sums over what it held. -/
theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero hz]
  simp only [View.readAt_eq_ld, h1.read_unread, h2.read_unread, h3.read_unread, View.ld_unit_zero (S := S5000x128) hz,
    View.ld_unit_zero (S := S1x128) hz]

/-- After a block that is not the first, the second row holds the payload of the sums of squares over what it held. -/
theorem out4_B_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero hz]
  simp only [View.readAt_eq_ld, h1.read_unread, h2.read_unread, h4.read_unread, View.ld_unit_zero (S := S5000x128) hz,
    View.ld_unit_zero (S := S1x128) hz]

/-- After the first block the first row holds the payload of the sums over the zero row it has just been set to. -/
theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- After the first block the second row holds the payload of the sums of squares over the zero row it has just been
    set to. -/
theorem out4_A_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-! ## The arithmetic, on any arrays -/

/-- The sum down one column of a 5000 × 128 block. -/
theorem blockColSum (src : FVec Ideal S5000x128 .f32) (h : S5000x128.Reduces [0] S128) (hφ : FKind.Formats .f32)
    (hacc : (0x00000000#32 : BitVec 32) = 0x00000000#32) (q : Fin 128) :
    multiReduction .add [0] S128 src 0x00000000#32 h hφ hacc (ix1 q) = ∑ p : Fin 5000, src (ix2 p q) := by
  refine (Ideal.multiReduction_add_single src 0x00000000#32 h hφ hacc (ix1 q)).trans ?_
  exact Finset.sum_congr rfl fun p _ => congrArg src (funext fun a => match a with | ⟨0, _⟩ => rfl | ⟨1, _⟩ => rfl)

/-- A row of zeros reads zero. -/
theorem zeroRow_apply (q : Fin 128) :
    (broadcast S1x128 (Scalar.ofBits (F := Ideal) .f32 0x00000000#32) : FVec Ideal S1x128 .f32) (ix2 0 q) = 0 :=
  Ideal.ofBits_zero_f32

/-- One block's step: the sum of the rows below 5000 · n, plus the 5000 terms of block n, is the sum of the rows
    below 5000 · (n + 1). -/
theorem sum_step (f : Fin 100000 → EReal) (g : Fin 5000 → EReal) (a : EReal) (n : ℕ) (hn : n < 20)
    (hg : ∀ p : Fin 5000, g p = f ⟨5000 * n + p.val, by have := p.isLt; omega⟩)
    (ha : a = Cert.BlockSum.partialSum f (5000 * n)) :
    a + ∑ p : Fin 5000, g p = Cert.BlockSum.partialSum f (5000 * (n + 1)) := by
  rw [ha, show 5000 * (n + 1) = 5000 * n + 5000 from by omega,
    ← Cert.BlockSum.partialSum_add_block f (5000 * n) 5000 (by omega)]
  exact congrArg _ (Finset.sum_congr rfl fun p _ => hg p)

/-- The first block's step starts from nothing. -/
theorem sum_first (f : Fin 100000 → EReal) (g : Fin 5000 → EReal) (a : EReal)
    (hg : ∀ p : Fin 5000, g p = f ⟨5000 * 0 + p.val, by have := p.isLt; omega⟩) (ha : a = 0) :
    a + ∑ p : Fin 5000, g p = Cert.BlockSum.partialSum f (5000 * (0 + 1)) :=
  sum_step f g a 0 (by omega) hg (ha.trans (Cert.BlockSum.partialSum_zero f).symm)

/-- An entry of "block plus bias row" is the entry of "matrix plus bias row" in the row the block's row is. -/
theorem addRow_block (x0 : FVec Ideal S5000x128 .f32) (x1 : FVec Ideal S1x128 .f32) (H : Cert.Gcn.Mat 100000 128)
    (B : Cert.Gcn.Mat 1 128) (p : Fin 5000) (q : Fin 128) (i : Fin 100000)
    (h0 : x0 (ix2 p q) = H (ix2 i q)) (h1 : x1 (ix2 0 q) = B (ix2 0 q)) :
    Cert.RowBias.addRow x0 x1 (ix2 p q) = Cert.RowBias.addRow H B (ix2 i q) := by
  show x0 (ix2 p q) + x1 (ix2 0 q) = H (ix2 i q) + B (ix2 0 q)
  rw [h0, h1]

/-- A row that holds, at every column, the sum over all 100000 rows is the row of column sums. -/
theorem eq_colSum (X : FVec Ideal S1x128 .f32) (A : Cert.Gcn.Mat 100000 128)
    (hX : ∀ q : Fin 128, X (ix2 0 q) = Cert.BlockSum.partialSum (fun p : Fin 100000 => A (ix2 p q)) (5000 * (19 + 1))) :
    X = Cert.Gcn.colSum A := by
  funext j
  obtain ⟨j0, q, rfl⟩ : ∃ (j0 : Fin 1) (q : Fin 128), j = ix2 j0 q := ⟨j 0, j 1, eq_ix2 j⟩
  obtain rfl : j0 = 0 := Subsingleton.elim _ _
  rw [hX q]
  exact Cert.BlockSum.partialSum_full _

/-! ## Region 1: the payloads read at an entry -/

/-- The block plus the bias row on every row. -/
theorem pay1_3_eq (x0 : Vec Ideal S5000x128 .f32) (x1 : Vec Ideal S1x128 .f32) :
    k1_pay3 (F := Ideal) x0 x1 = Cert.RowBias.addRow x0 x1 :=
  Cert.RowBias.addf_spread_eq x0 x1 _ _ _

/-- The new first row at column q: the old entry plus the block's column sum of "block plus bias row". -/
theorem pay1_4_apply (x0 : Vec Ideal S5000x128 .f32) (x1 acc : Vec Ideal S1x128 .f32) (q : Fin 128) :
    k1_pay4 (F := Ideal) x0 x1 acc (ix2 0 q)
      = acc (ix2 0 q) + ∑ p : Fin 5000, Cert.RowBias.addRow x0 x1 (ix2 p q) := by
  unfold k1_pay4
  refine (addf_apply _ _ (ix2 0 q)).trans ?_
  refine congrArg₂ (· + ·) (congrFun (shapeCast_self acc _) (ix2 0 q)) ?_
  refine (Cert.RowBias.asRow_apply _ _ q).trans ?_
  refine (blockColSum _ _ _ _ q).trans ?_
  exact Finset.sum_congr rfl fun p _ => congrFun (pay1_3_eq x0 x1) (ix2 p q)

/-- The new second row at column q: the old entry plus the block's column sum of the squares. -/
theorem pay1_5_apply (x0 : Vec Ideal S5000x128 .f32) (x1 acc : Vec Ideal S1x128 .f32) (q : Fin 128) :
    k1_pay5 (F := Ideal) x0 x1 acc (ix2 0 q)
      = acc (ix2 0 q) + ∑ p : Fin 5000, Cert.Gcn.sqr (Cert.RowBias.addRow x0 x1) (ix2 p q) := by
  unfold k1_pay5
  refine (addf_apply _ _ (ix2 0 q)).trans ?_
  refine congrArg₂ (· + ·) (congrFun (shapeCast_self acc _) (ix2 0 q)) ?_
  refine (Cert.RowBias.asRow_apply _ _ q).trans ?_
  refine (blockColSum _ _ _ _ q).trans ?_
  exact Finset.sum_congr rfl fun p _ =>
    congrArg (fun A : FVec Ideal S5000x128 .f32 => A (ix2 p q) * A (ix2 p q)) (pay1_3_eq x0 x1)

/-! ## Region 1: the blocks, the running sums, the arrays after the region -/

section Region1

variable (V : (c : Dev nD) → (b : Ref sig .tc) → Buf (Elt Ideal) ((c : Thread nD τ).loc b))

/-- The matrix the region reads, as it finds it. -/
abbrev H1 (c : Dev nD) : Cert.Gcn.Mat 100000 128 := V c main_v43
/-- The bias row the region reads, as it finds it. -/
abbrev B1 (c : Dev nD) : Cert.Gcn.Mat 1 128 := V c main_v44

/-- The block numbers: the matrix's block at point t is block t of its rows; the bias row's block and the two
    outputs' blocks never move. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem lt_points1 (t : Fin cfg1.N) : t.val < 20 := lt_of_lt_of_eq t.isLt (show cfg1.N = 20 from N_1)

/-- Row p of the matrix's block at point t is row 5000 · t + p of the matrix. -/
theorem hblock1 (c : Dev nD) (t : Fin cfg1.N) (p : Fin 5000) (q : Fin 128) :
    (iblk1 V c 0 t : Vec Ideal S5000x128 .f32) (ix2 p q)
      = H1 V c (ix2 ⟨5000 * t.val + p.val, by have := lt_points1 t; have := p.isLt; omega⟩ q) := by
  unfold iblk1
  rw [View.read_apply]
  show V c main_v43 _ = V c main_v43 _
  congr 1
  funext a
  apply Fin.ext
  match a with
  | ⟨0, _⟩ => show win1_0.index t (0 : Fin 2) * 5000 + 1 * p.val = 5000 * t.val + p.val; rw [(idx_facts1 t).1]; omega
  | ⟨1, _⟩ => show win1_0.index t (1 : Fin 2) * 128 + 1 * q.val = q.val; rw [(idx_facts1 t).2.1]; omega

/-- The bias row's block at any point is the bias row. -/
theorem bblock1 (c : Dev nD) (t : Fin cfg1.N) (q : Fin 128) :
    (iblk1 V c 1 t : Vec Ideal S1x128 .f32) (ix2 0 q) = B1 V c (ix2 0 q) := by
  unfold iblk1
  rw [View.read_apply]
  show V c main_v44 _ = V c main_v44 _
  congr 1
  funext a
  apply Fin.ext
  match a with
  | ⟨0, _⟩ => show win1_1.index t (0 : Fin 2) * 1 + 1 * 0 = 0; rw [(idx_facts1 t).2.2.1]
  | ⟨1, _⟩ => show win1_1.index t (1 : Fin 2) * 128 + 1 * q.val = q.val; rw [(idx_facts1 t).2.2.2.1]; omega

/-- What the two rows hold after the first point: the payloads over the zero rows. -/
theorem point1_A (c : Dev nD) (t : Fin cfg1.N) (h0 : t.val % 20 = 0) :
    outsAt1 V c t.val t.isLt
      = (k1_pay4 (iblk1 V c 0 t) (iblk1 V c 1 t) (k1_pay1 (F := Ideal)),
         k1_pay5 (iblk1 V c 0 t) (iblk1 V c 1 t) (k1_pay2 (F := Ideal))) := by
  rw [outsAt1_A V c t h0]
  exact congrArg₂ Prod.mk
    (out1_A_2_eq c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))
    (out1_A_3_eq c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))

/-- What the two rows hold after a later point: the payloads over what the point before left. -/
theorem point1_B (c : Dev nD) (t : Fin cfg1.N) (h0 : ¬t.val % 20 = 0) :
    outsAt1 V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  exact congrArg₂ Prod.mk
    (out1_B_2_eq c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2)
    (out1_B_3_eq c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2)

/-- An entry of "block plus bias row" at point t is the entry of "matrix plus bias row" in row 5000 · t + p. -/
theorem term1 (c : Dev nD) (t : Fin cfg1.N) (p : Fin 5000) (q : Fin 128) :
    Cert.RowBias.addRow (iblk1 V c 0 t : Vec Ideal S5000x128 .f32) (iblk1 V c 1 t : Vec Ideal S1x128 .f32) (ix2 p q)
      = Cert.RowBias.addRow (H1 V c) (B1 V c)
          (ix2 ⟨5000 * t.val + p.val, by have := lt_points1 t; have := p.isLt; omega⟩ q) :=
  addRow_block (iblk1 V c 0 t) (iblk1 V c 1 t) (H1 V c) (B1 V c) p q _ (hblock1 V c t p q) (bblock1 V c t q)

/-- THE RUNNING SUMS.  After point n the first row holds, at column q, the sum over the rows below 5000 · (n + 1)
    of "matrix plus bias row", and the second row the sum of its squares. -/
theorem outsAt1_eq (c : Dev nD) (q : Fin 128) : ∀ (n : ℕ) (h : n < cfg1.N),
    (outsAt1 V c n h).1 (ix2 0 q)
        = Cert.BlockSum.partialSum (fun p : Fin 100000 => Cert.RowBias.addRow (H1 V c) (B1 V c) (ix2 p q)) (5000 * (n + 1))
      ∧ (outsAt1 V c n h).2 (ix2 0 q)
        = Cert.BlockSum.partialSum (fun p : Fin 100000 => Cert.Gcn.sqr (Cert.RowBias.addRow (H1 V c) (B1 V c)) (ix2 p q)) (5000 * (n + 1))
  | 0, h => by
    have e : outsAt1 V c 0 h = _ := point1_A V c ⟨0, h⟩ rfl
    rw [e]
    constructor
    · refine (pay1_4_apply _ _ _ q).trans ?_
      exact sum_first _ _ _ (fun p => term1 V c ⟨0, h⟩ p q) (zeroRow_apply q)
    · refine (pay1_5_apply _ _ _ q).trans ?_
      exact sum_first _ _ _ (fun p => congrArg (fun x : EReal => x * x) (term1 V c ⟨0, h⟩ p q)) (zeroRow_apply q)
  | n + 1, h => by
    have hN : n + 1 < 20 := lt_points1 ⟨n + 1, h⟩
    have h0 : ¬(⟨n + 1, h⟩ : Fin cfg1.N).val % 20 = 0 := by dsimp only; omega
    have e : outsAt1 V c (n + 1) h = _ := point1_B V c ⟨n + 1, h⟩ h0
    obtain ⟨ih1, ih2⟩ := outsAt1_eq c q n (Nat.lt_of_succ_lt h)
    rw [e]
    constructor
    · refine (pay1_4_apply _ _ _ q).trans ?_
      exact sum_step _ _ _ (n + 1) hN (fun p => term1 V c ⟨n + 1, h⟩ p q) ih1
    · refine (pay1_5_apply _ _ _ q).trans ?_
      exact sum_step _ _ _ (n + 1) hN (fun p => congrArg (fun x : EReal => x * x) (term1 V c ⟨n + 1, h⟩ p q)) ih2

/-- The last point of the grid. -/
abbrev tEnd1 : Fin cfg1.N := ⟨19, lt_of_lt_of_eq (by decide : 19 < 20) (show cfg1.N = 20 from N_1).symm⟩

/-- What the last point leaves in the first row is the row of column sums. -/
theorem last1_2 (c : Dev nD) (h : 19 < cfg1.N) :
    (outsAt1 V c 19 h).1 = Cert.Gcn.colSum (Cert.RowBias.addRow (H1 V c) (B1 V c)) :=
  eq_colSum _ _ fun q => (outsAt1_eq V c q 19 h).1

/-- THE WRITE-BACK.  Output 2's one block is its whole array, and it is written back after the last point only:
    what is written is the row of column sums, read through the block. -/
theorem flushed1_2_eq (c : Dev nD) (t : Fin cfg1.N) (hf : (cfg1.win 2).flush t = true) :
    (dat1 (F := Ideal) V c).flushed 2 t
      = ((cfg1.win 2).blk t).view.read (Elt Ideal) (Cert.Gcn.colSum (Cert.RowBias.addRow (H1 V c) (B1 V c))) := by
  have h19 : t.val = 19 := by have := (flush1_2 t).mp hf; have := lt_points1 t; omega
  show (cfg1.win 2).cut (grid1.coords t) ((dat1 V c).after 2 t) = _
  rw [after1_2]
  have e : (outsAt1 V c t.val t.isLt).1 = Cert.Gcn.colSum (Cert.RowBias.addRow (H1 V c) (B1 V c)) := by
    obtain ⟨n, hn⟩ := t
    dsimp only at h19
    subst h19
    exact last1_2 V c hn
  rw [e]
  have hz' : (fun a => win1_2.index t a * main_v45_0.ty.shape.size a) = fun _ => 0 := funext fun a => by
    match a with
    | ⟨0, _⟩ => show win1_2.index t (0 : Fin 2) * 1 = 0; rw [(idx_facts1 t).2.2.2.2.1]
    | ⟨1, _⟩ => show win1_2.index t (1 : Fin 2) * 128 = 0; rw [(idx_facts1 t).2.2.2.2.2.1]
  exact (Memref.read_access_unit_zero (Elt Ideal) main_v45_0 hz' (fun a => by rw [congrFun hz' a]; simp) (Cert.Gcn.colSum (Cert.RowBias.addRow (H1 V c) (B1 V c)))).symm

/-- The block of output 2 at the last point covers its whole 1 × 128 array. -/
theorem cover1_2 (i : S1x128.Idx) :
    ∃ t : Fin cfg1.N, (cfg1.win 2).flush t = true ∧ i ∈ ((cfg1.win 2).blk t).view.set := by
  refine ⟨tEnd1, (flush1_2 tEnd1).mpr rfl, ?_⟩
  show i ∈ ((View.whole main_v45_0).slice (win1_2.rect tEnd1)).set
  rw [View.set_slice_whole, Rect.mem_set_unit]
  intro a
  have h0 : (i 0 : Nat) < 1 := (i 0).isLt
  have h1 : (i 1 : Nat) < 128 := (i 1).isLt
  match a with
  | ⟨0, _⟩ =>
    show win1_2.index tEnd1 (0 : Fin 2) * 1 ≤ (i 0 : Nat) ∧ (i 0 : Nat) < win1_2.index tEnd1 (0 : Fin 2) * 1 + 1
    rw [(idx_facts1 tEnd1).2.2.2.2.1]; omega
  | ⟨1, _⟩ =>
    show win1_2.index tEnd1 (1 : Fin 2) * 128 ≤ (i 1 : Nat) ∧ (i 1 : Nat) < win1_2.index tEnd1 (1 : Fin 2) * 128 + 128
    rw [(idx_facts1 tEnd1).2.2.2.2.2.1]; omega

/-- THE ARRAY AFTER THE REGION: the column sums of "matrix plus bias row". -/
theorem sums1 (c : Dev nD) :
    (dat1 (F := Ideal) V c).arrAt 2 cfg1.N = Cert.Gcn.colSum (Cert.RowBias.addRow (V c main_v43 : Cert.Gcn.Mat 100000 128) (V c main_v44 : Cert.Gcn.Mat 1 128)) :=
  (dat1 (F := Ideal) V c).arrAt_eq_of_cover 2 (Cert.Gcn.colSum (Cert.RowBias.addRow (H1 V c) (B1 V c))) (flushed1_2_eq V c) (cover1_2)

/-- What the last point leaves in the second row is the row of column sums. -/
theorem last1_3 (c : Dev nD) (h : 19 < cfg1.N) :
    (outsAt1 V c 19 h).2 = Cert.Gcn.colSum (Cert.Gcn.sqr (Cert.RowBias.addRow (H1 V c) (B1 V c))) :=
  eq_colSum _ _ fun q => (outsAt1_eq V c q 19 h).2

/-- THE WRITE-BACK.  Output 3's one block is its whole array, and it is written back after the last point only:
    what is written is the row of column sums, read through the block. -/
theorem flushed1_3_eq (c : Dev nD) (t : Fin cfg1.N) (hf : (cfg1.win 3).flush t = true) :
    (dat1 (F := Ideal) V c).flushed 3 t
      = ((cfg1.win 3).blk t).view.read (Elt Ideal) (Cert.Gcn.colSum (Cert.Gcn.sqr (Cert.RowBias.addRow (H1 V c) (B1 V c)))) := by
  have h19 : t.val = 19 := by have := (flush1_3 t).mp hf; have := lt_points1 t; omega
  show (cfg1.win 3).cut (grid1.coords t) ((dat1 V c).after 3 t) = _
  rw [after1_3]
  have e : (outsAt1 V c t.val t.isLt).2 = Cert.Gcn.colSum (Cert.Gcn.sqr (Cert.RowBias.addRow (H1 V c) (B1 V c))) := by
    obtain ⟨n, hn⟩ := t
    dsimp only at h19
    subst h19
    exact last1_3 V c hn
  rw [e]
  have hz' : (fun a => win1_3.index t a * main_v45_1.ty.shape.size a) = fun _ => 0 := funext fun a => by
    match a with
    | ⟨0, _⟩ => show win1_3.index t (0 : Fin 2) * 1 = 0; rw [(idx_facts1 t).2.2.2.2.2.2.1]
    | ⟨1, _⟩ => show win1_3.index t (1 : Fin 2) * 128 = 0; rw [(idx_facts1 t).2.2.2.2.2.2.2]
  exact (Memref.read_access_unit_zero (Elt Ideal) main_v45_1 hz' (fun a => by rw [congrFun hz' a]; simp) (Cert.Gcn.colSum (Cert.Gcn.sqr (Cert.RowBias.addRow (H1 V c) (B1 V c))))).symm

/-- The block of output 3 at the last point covers its whole 1 × 128 array. -/
theorem cover1_3 (i : S1x128.Idx) :
    ∃ t : Fin cfg1.N, (cfg1.win 3).flush t = true ∧ i ∈ ((cfg1.win 3).blk t).view.set := by
  refine ⟨tEnd1, (flush1_3 tEnd1).mpr rfl, ?_⟩
  show i ∈ ((View.whole main_v45_1).slice (win1_3.rect tEnd1)).set
  rw [View.set_slice_whole, Rect.mem_set_unit]
  intro a
  have h0 : (i 0 : Nat) < 1 := (i 0).isLt
  have h1 : (i 1 : Nat) < 128 := (i 1).isLt
  match a with
  | ⟨0, _⟩ =>
    show win1_3.index tEnd1 (0 : Fin 2) * 1 ≤ (i 0 : Nat) ∧ (i 0 : Nat) < win1_3.index tEnd1 (0 : Fin 2) * 1 + 1
    rw [(idx_facts1 tEnd1).2.2.2.2.2.2.1]; omega
  | ⟨1, _⟩ =>
    show win1_3.index tEnd1 (1 : Fin 2) * 128 ≤ (i 1 : Nat) ∧ (i 1 : Nat) < win1_3.index tEnd1 (1 : Fin 2) * 128 + 128
    rw [(idx_facts1 tEnd1).2.2.2.2.2.2.2]; omega

/-- THE ARRAY AFTER THE REGION: the column sums of the squares of "matrix plus bias row". -/
theorem squares1 (c : Dev nD) :
    (dat1 (F := Ideal) V c).arrAt 3 cfg1.N = Cert.Gcn.colSum (Cert.Gcn.sqr (Cert.RowBias.addRow (V c main_v43 : Cert.Gcn.Mat 100000 128) (V c main_v44 : Cert.Gcn.Mat 1 128))) :=
  (dat1 (F := Ideal) V c).arrAt_eq_of_cover 3 (Cert.Gcn.colSum (Cert.Gcn.sqr (Cert.RowBias.addRow (H1 V c) (B1 V c)))) (flushed1_3_eq V c) (cover1_3)

end Region1

/-! ## Region 4: the payloads read at an entry -/

/-- The block plus the bias row on every row. -/
theorem pay4_3_eq (x0 : Vec Ideal S5000x128 .f32) (x1 : Vec Ideal S1x128 .f32) :
    k4_pay3 (F := Ideal) x0 x1 = Cert.RowBias.addRow x0 x1 :=
  Cert.RowBias.addf_spread_eq x0 x1 _ _ _

/-- The new first row at column q: the old entry plus the block's column sum of "block plus bias row". -/
theorem pay4_4_apply (x0 : Vec Ideal S5000x128 .f32) (x1 acc : Vec Ideal S1x128 .f32) (q : Fin 128) :
    k4_pay4 (F := Ideal) x0 x1 acc (ix2 0 q)
      = acc (ix2 0 q) + ∑ p : Fin 5000, Cert.RowBias.addRow x0 x1 (ix2 p q) := by
  unfold k4_pay4
  refine (addf_apply _ _ (ix2 0 q)).trans ?_
  refine congrArg₂ (· + ·) (congrFun (shapeCast_self acc _) (ix2 0 q)) ?_
  refine (Cert.RowBias.asRow_apply _ _ q).trans ?_
  refine (blockColSum _ _ _ _ q).trans ?_
  exact Finset.sum_congr rfl fun p _ => congrFun (pay4_3_eq x0 x1) (ix2 p q)

/-- The new second row at column q: the old entry plus the block's column sum of the squares. -/
theorem pay4_5_apply (x0 : Vec Ideal S5000x128 .f32) (x1 acc : Vec Ideal S1x128 .f32) (q : Fin 128) :
    k4_pay5 (F := Ideal) x0 x1 acc (ix2 0 q)
      = acc (ix2 0 q) + ∑ p : Fin 5000, Cert.Gcn.sqr (Cert.RowBias.addRow x0 x1) (ix2 p q) := by
  unfold k4_pay5
  refine (addf_apply _ _ (ix2 0 q)).trans ?_
  refine congrArg₂ (· + ·) (congrFun (shapeCast_self acc _) (ix2 0 q)) ?_
  refine (Cert.RowBias.asRow_apply _ _ q).trans ?_
  refine (blockColSum _ _ _ _ q).trans ?_
  exact Finset.sum_congr rfl fun p _ =>
    congrArg (fun A : FVec Ideal S5000x128 .f32 => A (ix2 p q) * A (ix2 p q)) (pay4_3_eq x0 x1)

/-! ## Region 4: the blocks, the running sums, the arrays after the region -/

section Region4

variable (V : (c : Dev nD) → (b : Ref sig .tc) → Buf (Elt Ideal) ((c : Thread nD τ).loc b))

/-- The matrix the region reads, as it finds it. -/
abbrev H4 (c : Dev nD) : Cert.Gcn.Mat 100000 128 := V c main_v69
/-- The bias row the region reads, as it finds it. -/
abbrev B4 (c : Dev nD) : Cert.Gcn.Mat 1 128 := V c main_v70

/-- The block numbers: the matrix's block at point t is block t of its rows; the bias row's block and the two
    outputs' blocks never move. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem lt_points4 (t : Fin cfg4.N) : t.val < 20 := lt_of_lt_of_eq t.isLt (show cfg4.N = 20 from N_4)

/-- Row p of the matrix's block at point t is row 5000 · t + p of the matrix. -/
theorem hblock4 (c : Dev nD) (t : Fin cfg4.N) (p : Fin 5000) (q : Fin 128) :
    (iblk4 V c 0 t : Vec Ideal S5000x128 .f32) (ix2 p q)
      = H4 V c (ix2 ⟨5000 * t.val + p.val, by have := lt_points4 t; have := p.isLt; omega⟩ q) := by
  unfold iblk4
  rw [View.read_apply]
  show V c main_v69 _ = V c main_v69 _
  congr 1
  funext a
  apply Fin.ext
  match a with
  | ⟨0, _⟩ => show win4_0.index t (0 : Fin 2) * 5000 + 1 * p.val = 5000 * t.val + p.val; rw [(idx_facts4 t).1]; omega
  | ⟨1, _⟩ => show win4_0.index t (1 : Fin 2) * 128 + 1 * q.val = q.val; rw [(idx_facts4 t).2.1]; omega

/-- The bias row's block at any point is the bias row. -/
theorem bblock4 (c : Dev nD) (t : Fin cfg4.N) (q : Fin 128) :
    (iblk4 V c 1 t : Vec Ideal S1x128 .f32) (ix2 0 q) = B4 V c (ix2 0 q) := by
  unfold iblk4
  rw [View.read_apply]
  show V c main_v70 _ = V c main_v70 _
  congr 1
  funext a
  apply Fin.ext
  match a with
  | ⟨0, _⟩ => show win4_1.index t (0 : Fin 2) * 1 + 1 * 0 = 0; rw [(idx_facts4 t).2.2.1]
  | ⟨1, _⟩ => show win4_1.index t (1 : Fin 2) * 128 + 1 * q.val = q.val; rw [(idx_facts4 t).2.2.2.1]; omega

/-- What the two rows hold after the first point: the payloads over the zero rows. -/
theorem point4_A (c : Dev nD) (t : Fin cfg4.N) (h0 : t.val % 20 = 0) :
    outsAt4 V c t.val t.isLt
      = (k4_pay4 (iblk4 V c 0 t) (iblk4 V c 1 t) (k4_pay1 (F := Ideal)),
         k4_pay5 (iblk4 V c 0 t) (iblk4 V c 1 t) (k4_pay2 (F := Ideal))) := by
  rw [outsAt4_A V c t h0]
  exact congrArg₂ Prod.mk
    (out4_A_2_eq c (grid4.coords t) (ms4_0 t) (hs4_0 t) (ms4_1 t) (hs4_1 t) (ms4_2 t) (hs4_2 t) (ms4_3 t) (hs4_3 t) ((hcond4_0 t).mpr h0) (iblk4 V c 0 t) (iblk4 V c 1 t))
    (out4_A_3_eq c (grid4.coords t) (ms4_0 t) (hs4_0 t) (ms4_1 t) (hs4_1 t) (ms4_2 t) (hs4_2 t) (ms4_3 t) (hs4_3 t) ((hcond4_0 t).mpr h0) (iblk4 V c 0 t) (iblk4 V c 1 t))

/-- What the two rows hold after a later point: the payloads over what the point before left. -/
theorem point4_B (c : Dev nD) (t : Fin cfg4.N) (h0 : ¬t.val % 20 = 0) :
    outsAt4 V c t.val t.isLt
      = (k4_pay4 (iblk4 V c 0 t) (iblk4 V c 1 t) (outsAt4 V c (t.val - 1) (Nat.lt_of_le_of_lt (Nat.sub_le _ _) t.isLt)).1,
         k4_pay5 (iblk4 V c 0 t) (iblk4 V c 1 t) (outsAt4 V c (t.val - 1) (Nat.lt_of_le_of_lt (Nat.sub_le _ _) t.isLt)).2) := by
  rw [outsAt4_B V c t h0]
  exact congrArg₂ Prod.mk
    (out4_B_2_eq c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2)
    (out4_B_3_eq c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2)

/-- An entry of "block plus bias row" at point t is the entry of "matrix plus bias row" in row 5000 · t + p. -/
theorem term4 (c : Dev nD) (t : Fin cfg4.N) (p : Fin 5000) (q : Fin 128) :
    Cert.RowBias.addRow (iblk4 V c 0 t : Vec Ideal S5000x128 .f32) (iblk4 V c 1 t : Vec Ideal S1x128 .f32) (ix2 p q)
      = Cert.RowBias.addRow (H4 V c) (B4 V c)
          (ix2 ⟨5000 * t.val + p.val, by have := lt_points4 t; have := p.isLt; omega⟩ q) :=
  addRow_block (iblk4 V c 0 t) (iblk4 V c 1 t) (H4 V c) (B4 V c) p q _ (hblock4 V c t p q) (bblock4 V c t q)

/-- THE RUNNING SUMS.  After point n the first row holds, at column q, the sum over the rows below 5000 · (n + 1)
    of "matrix plus bias row", and the second row the sum of its squares. -/
theorem outsAt4_eq (c : Dev nD) (q : Fin 128) : ∀ (n : ℕ) (h : n < cfg4.N),
    (outsAt4 V c n h).1 (ix2 0 q)
        = Cert.BlockSum.partialSum (fun p : Fin 100000 => Cert.RowBias.addRow (H4 V c) (B4 V c) (ix2 p q)) (5000 * (n + 1))
      ∧ (outsAt4 V c n h).2 (ix2 0 q)
        = Cert.BlockSum.partialSum (fun p : Fin 100000 => Cert.Gcn.sqr (Cert.RowBias.addRow (H4 V c) (B4 V c)) (ix2 p q)) (5000 * (n + 1))
  | 0, h => by
    have e : outsAt4 V c 0 h = _ := point4_A V c ⟨0, h⟩ rfl
    rw [e]
    constructor
    · refine (pay4_4_apply _ _ _ q).trans ?_
      exact sum_first _ _ _ (fun p => term4 V c ⟨0, h⟩ p q) (zeroRow_apply q)
    · refine (pay4_5_apply _ _ _ q).trans ?_
      exact sum_first _ _ _ (fun p => congrArg (fun x : EReal => x * x) (term4 V c ⟨0, h⟩ p q)) (zeroRow_apply q)
  | n + 1, h => by
    have hN : n + 1 < 20 := lt_points4 ⟨n + 1, h⟩
    have h0 : ¬(⟨n + 1, h⟩ : Fin cfg4.N).val % 20 = 0 := by dsimp only; omega
    have e : outsAt4 V c (n + 1) h = _ := point4_B V c ⟨n + 1, h⟩ h0
    obtain ⟨ih1, ih2⟩ := outsAt4_eq c q n (Nat.lt_of_succ_lt h)
    rw [e]
    constructor
    · refine (pay4_4_apply _ _ _ q).trans ?_
      exact sum_step _ _ _ (n + 1) hN (fun p => term4 V c ⟨n + 1, h⟩ p q) ih1
    · refine (pay4_5_apply _ _ _ q).trans ?_
      exact sum_step _ _ _ (n + 1) hN (fun p => congrArg (fun x : EReal => x * x) (term4 V c ⟨n + 1, h⟩ p q)) ih2

/-- The last point of the grid. -/
abbrev tEnd4 : Fin cfg4.N := ⟨19, lt_of_lt_of_eq (by decide : 19 < 20) (show cfg4.N = 20 from N_4).symm⟩

/-- What the last point leaves in the first row is the row of column sums. -/
theorem last4_2 (c : Dev nD) (h : 19 < cfg4.N) :
    (outsAt4 V c 19 h).1 = Cert.Gcn.colSum (Cert.RowBias.addRow (H4 V c) (B4 V c)) :=
  eq_colSum _ _ fun q => (outsAt4_eq V c q 19 h).1

/-- THE WRITE-BACK.  Output 2's one block is its whole array, and it is written back after the last point only:
    what is written is the row of column sums, read through the block. -/
theorem flushed4_2_eq (c : Dev nD) (t : Fin cfg4.N) (hf : (cfg4.win 2).flush t = true) :
    (dat4 (F := Ideal) V c).flushed 2 t
      = ((cfg4.win 2).blk t).view.read (Elt Ideal) (Cert.Gcn.colSum (Cert.RowBias.addRow (H4 V c) (B4 V c))) := by
  have h19 : t.val = 19 := by have := (flush4_2 t).mp hf; have := lt_points4 t; omega
  show (cfg4.win 2).cut (grid4.coords t) ((dat4 V c).after 2 t) = _
  rw [after4_2]
  have e : (outsAt4 V c t.val t.isLt).1 = Cert.Gcn.colSum (Cert.RowBias.addRow (H4 V c) (B4 V c)) := by
    obtain ⟨n, hn⟩ := t
    dsimp only at h19
    subst h19
    exact last4_2 V c hn
  rw [e]
  have hz' : (fun a => win4_2.index t a * main_v71_0.ty.shape.size a) = fun _ => 0 := funext fun a => by
    match a with
    | ⟨0, _⟩ => show win4_2.index t (0 : Fin 2) * 1 = 0; rw [(idx_facts4 t).2.2.2.2.1]
    | ⟨1, _⟩ => show win4_2.index t (1 : Fin 2) * 128 = 0; rw [(idx_facts4 t).2.2.2.2.2.1]
  exact (Memref.read_access_unit_zero (Elt Ideal) main_v71_0 hz' (fun a => by rw [congrFun hz' a]; simp) (Cert.Gcn.colSum (Cert.RowBias.addRow (H4 V c) (B4 V c)))).symm

/-- The block of output 2 at the last point covers its whole 1 × 128 array. -/
theorem cover4_2 (i : S1x128.Idx) :
    ∃ t : Fin cfg4.N, (cfg4.win 2).flush t = true ∧ i ∈ ((cfg4.win 2).blk t).view.set := by
  refine ⟨tEnd4, (flush4_2 tEnd4).mpr rfl, ?_⟩
  show i ∈ ((View.whole main_v71_0).slice (win4_2.rect tEnd4)).set
  rw [View.set_slice_whole, Rect.mem_set_unit]
  intro a
  have h0 : (i 0 : Nat) < 1 := (i 0).isLt
  have h1 : (i 1 : Nat) < 128 := (i 1).isLt
  match a with
  | ⟨0, _⟩ =>
    show win4_2.index tEnd4 (0 : Fin 2) * 1 ≤ (i 0 : Nat) ∧ (i 0 : Nat) < win4_2.index tEnd4 (0 : Fin 2) * 1 + 1
    rw [(idx_facts4 tEnd4).2.2.2.2.1]; omega
  | ⟨1, _⟩ =>
    show win4_2.index tEnd4 (1 : Fin 2) * 128 ≤ (i 1 : Nat) ∧ (i 1 : Nat) < win4_2.index tEnd4 (1 : Fin 2) * 128 + 128
    rw [(idx_facts4 tEnd4).2.2.2.2.2.1]; omega

/-- THE ARRAY AFTER THE REGION: the column sums of "matrix plus bias row". -/
theorem sums4 (c : Dev nD) :
    (dat4 (F := Ideal) V c).arrAt 2 cfg4.N = Cert.Gcn.colSum (Cert.RowBias.addRow (V c main_v69 : Cert.Gcn.Mat 100000 128) (V c main_v70 : Cert.Gcn.Mat 1 128)) :=
  (dat4 (F := Ideal) V c).arrAt_eq_of_cover 2 (Cert.Gcn.colSum (Cert.RowBias.addRow (H4 V c) (B4 V c))) (flushed4_2_eq V c) (cover4_2)

/-- What the last point leaves in the second row is the row of column sums. -/
theorem last4_3 (c : Dev nD) (h : 19 < cfg4.N) :
    (outsAt4 V c 19 h).2 = Cert.Gcn.colSum (Cert.Gcn.sqr (Cert.RowBias.addRow (H4 V c) (B4 V c))) :=
  eq_colSum _ _ fun q => (outsAt4_eq V c q 19 h).2

/-- THE WRITE-BACK.  Output 3's one block is its whole array, and it is written back after the last point only:
    what is written is the row of column sums, read through the block. -/
theorem flushed4_3_eq (c : Dev nD) (t : Fin cfg4.N) (hf : (cfg4.win 3).flush t = true) :
    (dat4 (F := Ideal) V c).flushed 3 t
      = ((cfg4.win 3).blk t).view.read (Elt Ideal) (Cert.Gcn.colSum (Cert.Gcn.sqr (Cert.RowBias.addRow (H4 V c) (B4 V c)))) := by
  have h19 : t.val = 19 := by have := (flush4_3 t).mp hf; have := lt_points4 t; omega
  show (cfg4.win 3).cut (grid4.coords t) ((dat4 V c).after 3 t) = _
  rw [after4_3]
  have e : (outsAt4 V c t.val t.isLt).2 = Cert.Gcn.colSum (Cert.Gcn.sqr (Cert.RowBias.addRow (H4 V c) (B4 V c))) := by
    obtain ⟨n, hn⟩ := t
    dsimp only at h19
    subst h19
    exact last4_3 V c hn
  rw [e]
  have hz' : (fun a => win4_3.index t a * main_v71_1.ty.shape.size a) = fun _ => 0 := funext fun a => by
    match a with
    | ⟨0, _⟩ => show win4_3.index t (0 : Fin 2) * 1 = 0; rw [(idx_facts4 t).2.2.2.2.2.2.1]
    | ⟨1, _⟩ => show win4_3.index t (1 : Fin 2) * 128 = 0; rw [(idx_facts4 t).2.2.2.2.2.2.2]
  exact (Memref.read_access_unit_zero (Elt Ideal) main_v71_1 hz' (fun a => by rw [congrFun hz' a]; simp) (Cert.Gcn.colSum (Cert.Gcn.sqr (Cert.RowBias.addRow (H4 V c) (B4 V c))))).symm

/-- The block of output 3 at the last point covers its whole 1 × 128 array. -/
theorem cover4_3 (i : S1x128.Idx) :
    ∃ t : Fin cfg4.N, (cfg4.win 3).flush t = true ∧ i ∈ ((cfg4.win 3).blk t).view.set := by
  refine ⟨tEnd4, (flush4_3 tEnd4).mpr rfl, ?_⟩
  show i ∈ ((View.whole main_v71_1).slice (win4_3.rect tEnd4)).set
  rw [View.set_slice_whole, Rect.mem_set_unit]
  intro a
  have h0 : (i 0 : Nat) < 1 := (i 0).isLt
  have h1 : (i 1 : Nat) < 128 := (i 1).isLt
  match a with
  | ⟨0, _⟩ =>
    show win4_3.index tEnd4 (0 : Fin 2) * 1 ≤ (i 0 : Nat) ∧ (i 0 : Nat) < win4_3.index tEnd4 (0 : Fin 2) * 1 + 1
    rw [(idx_facts4 tEnd4).2.2.2.2.2.2.1]; omega
  | ⟨1, _⟩ =>
    show win4_3.index tEnd4 (1 : Fin 2) * 128 ≤ (i 1 : Nat) ∧ (i 1 : Nat) < win4_3.index tEnd4 (1 : Fin 2) * 128 + 128
    rw [(idx_facts4 tEnd4).2.2.2.2.2.2.2]; omega

/-- THE ARRAY AFTER THE REGION: the column sums of the squares of "matrix plus bias row". -/
theorem squares4 (c : Dev nD) :
    (dat4 (F := Ideal) V c).arrAt 3 cfg4.N = Cert.Gcn.colSum (Cert.Gcn.sqr (Cert.RowBias.addRow (V c main_v69 : Cert.Gcn.Mat 100000 128) (V c main_v70 : Cert.Gcn.Mat 1 128))) :=
  (dat4 (F := Ideal) V c).arrAt_eq_of_cover 3 (Cert.Gcn.colSum (Cert.Gcn.sqr (Cert.RowBias.addRow (H4 V c) (B4 V c)))) (flushed4_3_eq V c) (cover4_3)

end Region4

end Cert.KernelIdeal.RegionStats

end
-- ==== Proof.RegionNorm.lean ====
/-
  The two normalising regions (after the first and after the second layer): after the region, the whole output
  array is one function of the region's input arrays.

  The region walks the 100000 rows of H in 20 blocks of 5000 rows.  At each block it adds a bias row to every row,
  subtracts the row of column means, multiplies by the inverse square root of the row of column variances plus a small
  constant, scales by a row, shifts by a row and clamps below at zero.  The five rows are the same at every block, so
  block t of the result is rows 5000·t … 5000·t + 4999 of one 100000×128 array: the formula applied to the whole of H.
  The 20 blocks fill the 100000 rows (row r lies in block r / 5000), so the array the region leaves is that array.
-/
import proofs.«102224_j12773232738363_1_alg».proof.Proof.Gen.KernelIdeal.Frame
import proofs.«102224_j12773232738363_1_alg».proof.Proof.Spec
import proofs.«102224_j12773232738363_1_alg».proof.Proof.LibRowBias
import Idealize.ShloMosaic.Lib.Pipeline.Value

noncomputable section

namespace Cert.KernelIdeal.RegionNorm

open Cert.KernelIdeal Cert.KernelIdeal.Gen Idealize.ShloMosaic Idealize.ShloMosaic.TcCoe Idealize.SL.Sem
open Idealize.ShloMosaic.ValueIdx
open Idealize.ShloMosaic.Pipeline (Dat)

/-- The block's payload, entry by entry: the formula of the normalisation applied to the block of H plus the bias row,
    with the rows of means, variances, scales and shifts.  Every row is spread over the block's 5000 rows. -/
theorem pay2_eq (h : Vec Ideal S5000x128 .f32) (b var mean g be : Vec Ideal S1x128 .f32) :
    k2_pay1 (F := Ideal) h b var mean g be
      = Cert.Gcn.normRelu (Cert.RowBias.addRow h b) mean var g be := by
  unfold k2_pay1
  simp only [shapeCast_self]
  funext j
  show max (((h j + broadcastTo S5000x128 b broadcasts_S1x128_S5000x128 j)
        - broadcastTo S5000x128 mean broadcasts_S1x128_S5000x128 j)
        * broadcastTo S5000x128 (fun k => Ideal.rsqrt (var k + Ideal.ofBits .f32 0x3727C5AC#32)) broadcasts_S1x128_S5000x128 j
        * broadcastTo S5000x128 g broadcasts_S1x128_S5000x128 j
        + broadcastTo S5000x128 be broadcasts_S1x128_S5000x128 j) (Ideal.ofBits .f32 0x00000000#32) = _
  rw [Cert.RowBias.spreadRow_apply, Cert.RowBias.spreadRow_apply, Cert.RowBias.spreadRow_apply,
    Cert.RowBias.spreadRow_apply, Cert.RowBias.spreadRow_apply]
  rfl

/-- The payload of the second normalising region is the same formula, entry by entry: the normalisation applied to the
    block of H plus the bias row, with the rows of means, variances, scales and shifts.  Every row is spread over the block's 5000 rows. -/
theorem pay5_eq (h : Vec Ideal S5000x128 .f32) (b var mean g be : Vec Ideal S1x128 .f32) :
    k5_pay1 (F := Ideal) h b var mean g be
      = Cert.Gcn.normRelu (Cert.RowBias.addRow h b) mean var g be := by
  unfold k5_pay1
  simp only [shapeCast_self]
  funext j
  show max (((h j + broadcastTo S5000x128 b broadcasts_S1x128_S5000x128 j)
        - broadcastTo S5000x128 mean broadcasts_S1x128_S5000x128 j)
        * broadcastTo S5000x128 (fun k => Ideal.rsqrt (var k + Ideal.ofBits .f32 0x3727C5AC#32)) broadcasts_S1x128_S5000x128 j
        * broadcastTo S5000x128 g broadcasts_S1x128_S5000x128 j
        + broadcastTo S5000x128 be broadcasts_S1x128_S5000x128 j) (Ideal.ofBits .f32 0x00000000#32) = _
  rw [Cert.RowBias.spreadRow_apply, Cert.RowBias.spreadRow_apply, Cert.RowBias.spreadRow_apply,
    Cert.RowBias.spreadRow_apply, Cert.RowBias.spreadRow_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The formula at an entry depends on H at that entry and on the five rows at the entry's column: two entries in the
    same column, at which two arrays agree, give the same value. -/
theorem normRelu_at {M M' N : Nat} (X : Cert.Gcn.Mat M N) (H : Cert.Gcn.Mat M' N) (b mean var g be : Cert.Gcn.Mat 1 N)
    (j : (⟨2, ![M, N]⟩ : Shape).Idx) (k : (⟨2, ![M', N]⟩ : Shape).Idx)
    (hX : X j = H k) (hq : (ix2 0 (j 1) : (⟨2, ![1, N]⟩ : Shape).Idx) = ix2 0 (k 1)) :
    Cert.Gcn.normRelu (Cert.RowBias.addRow X b) mean var g be j
      = Cert.Gcn.normRelu (Cert.RowBias.addRow H b) mean var g be k := by
  show max ((X j + b (ix2 0 (j 1)) - mean (ix2 0 (j 1))) * Ideal.rsqrt (var (ix2 0 (j 1)) + Cert.Gcn.eps)
        * g (ix2 0 (j 1)) + be (ix2 0 (j 1))) _
      = max ((H k + b (ix2 0 (k 1)) - mean (ix2 0 (k 1))) * Ideal.rsqrt (var (ix2 0 (k 1)) + Cert.Gcn.eps)
        * g (ix2 0 (k 1)) + be (ix2 0 (k 1))) _
  rw [hX, hq]
  rfl

/-! ## Region 2 -/

/-- Where point t of the grid places each window's block: the blocks of H and of the result are the t-th of their
    arrays' 20 row blocks, and every row window stays on its one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The bias window's block at any point is the whole row of biases. -/
theorem row2_1 (c : Dev nD) (t : Fin cfg2.N) :
    (iblk2 V c 1 t : S1x128.Idx → EReal) = (V c main_v52 : S1x128.Idx → EReal) := by
  obtain ⟨h00, h01, h10, h11, h20, h21, h30, h31, h40, h41, h50, h51, h60, h61⟩ := idx_facts2 t
  funext y
  unfold iblk2
  rw [View.read_apply]
  show V c main_v52 (((cfg2.win 1).blk t).view.emb y) = V c main_v52 y
  refine congrArg (V c main_v52) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The mean window's block at any point is the whole row of means. -/
theorem row2_2 (c : Dev nD) (t : Fin cfg2.N) :
    (iblk2 V c 2 t : S1x128.Idx → EReal) = (V c main_v47 : S1x128.Idx → EReal) := by
  obtain ⟨h00, h01, h10, h11, h20, h21, h30, h31, h40, h41, h50, h51, h60, h61⟩ := idx_facts2 t
  funext y
  unfold iblk2
  rw [View.read_apply]
  show V c main_v47 (((cfg2.win 2).blk t).view.emb y) = V c main_v47 y
  refine congrArg (V c main_v47) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The variance window's block at any point is the whole row of variances. -/
theorem row2_3 (c : Dev nD) (t : Fin cfg2.N) :
    (iblk2 V c 3 t : S1x128.Idx → EReal) = (V c main_v51 : S1x128.Idx → EReal) := by
  obtain ⟨h00, h01, h10, h11, h20, h21, h30, h31, h40, h41, h50, h51, h60, h61⟩ := idx_facts2 t
  funext y
  unfold iblk2
  rw [View.read_apply]
  show V c main_v51 (((cfg2.win 3).blk t).view.emb y) = V c main_v51 y
  refine congrArg (V c main_v51) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The scale window's block at any point is the whole row of scales. -/
theorem row2_4 (c : Dev nD) (t : Fin cfg2.N) :
    (iblk2 V c 4 t : S1x128.Idx → EReal) = (V c main_v53 : S1x128.Idx → EReal) := by
  obtain ⟨h00, h01, h10, h11, h20, h21, h30, h31, h40, h41, h50, h51, h60, h61⟩ := idx_facts2 t
  funext y
  unfold iblk2
  rw [View.read_apply]
  show V c main_v53 (((cfg2.win 4).blk t).view.emb y) = V c main_v53 y
  refine congrArg (V c main_v53) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The shift window's block at any point is the whole row of shifts. -/
theorem row2_5 (c : Dev nD) (t : Fin cfg2.N) :
    (iblk2 V c 5 t : S1x128.Idx → EReal) = (V c main_v54 : S1x128.Idx → EReal) := by
  obtain ⟨h00, h01, h10, h11, h20, h21, h30, h31, h40, h41, h50, h51, h60, h61⟩ := idx_facts2 t
  funext y
  unfold iblk2
  rw [View.read_apply]
  show V c main_v54 (((cfg2.win 5).blk t).view.emb y) = V c main_v54 y
  refine congrArg (V c main_v54) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Entry y of H's block at point t is entry (5000·t + y₀, y₁) of H. -/
theorem block2_0 (c : Dev nD) (t : Fin cfg2.N) (y : S5000x128.Idx) (k : S100000x128.Idx)
    (hk0 : (k 0).val = t.val * 5000 + (y 0).val) (hk1 : (k 1).val = (y 1).val) :
    (iblk2 V c 0 t : S5000x128.Idx → EReal) y = (V c main_v43 : S100000x128.Idx → EReal) k := by
  obtain ⟨h00, h01, h10, h11, h20, h21, h30, h31, h40, h41, h50, h51, h60, h61⟩ := idx_facts2 t
  unfold iblk2
  rw [View.read_apply]
  show V c main_v43 (((cfg2.win 0).blk t).view.emb y) = V c main_v43 k
  refine congrArg (V c main_v43) (funext fun a => Fin.ext ?_)
  match a with
  | ⟨0, _⟩ => show win2_0.index t (0 : Fin 2) * 5000 + 1 * (y 0).val = (k 0).val; omega
  | ⟨1, _⟩ => show win2_0.index t (1 : Fin 2) * 128 + 1 * (y 1).val = (k 1).val; omega

/-- What point t writes back is block t of the normalisation of the whole of H: rows 5000·t … 5000·t + 4999. -/
theorem flushed2_eq (c : Dev nD) (t : Fin cfg2.N) :
    (dat2 (F := Ideal) V c).flushed 6 t = ((cfg2.win 6).blk t).view.read (Elt Ideal)
      (Cert.Gcn.normRelu (Cert.RowBias.addRow (V c main_v43) (V c main_v52)) (V c main_v47) (V c main_v51)
        (V c main_v53) (V c main_v54)) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  rw [pay2_eq]
  obtain ⟨h00, h01, h10, h11, h20, h21, h30, h31, h40, h41, h50, h51, h60, h61⟩ := idx_facts2 t
  funext j
  show Cert.Gcn.normRelu (Cert.RowBias.addRow (iblk2 V c 0 t) (iblk2 V c 1 t)) (iblk2 V c 2 t) (iblk2 V c 3 t)
        (iblk2 V c 4 t) (iblk2 V c 5 t) j
      = Cert.Gcn.normRelu (Cert.RowBias.addRow (V c main_v43) (V c main_v52)) (V c main_v47) (V c main_v51)
        (V c main_v53) (V c main_v54) (((cfg2.win 6).blk t).view.emb j)
  rw [row2_1 V c t, row2_2 V c t, row2_3 V c t, row2_4 V c t, row2_5 V c t]
  refine normRelu_at (iblk2 V c 0 t) (V c main_v43) (V c main_v52) (V c main_v47) (V c main_v51) (V c main_v53)
    (V c main_v54) j (((cfg2.win 6).blk t).view.emb j)
    (block2_0 V c t j (((cfg2.win 6).blk t).view.emb j) ?_ ?_) (congrArg (ix2 0) (Fin.ext ?_))
  · show win2_6.index t (0 : Fin 2) * 5000 + 1 * (j 0).val = t.val * 5000 + (j 0).val; omega
  · show win2_6.index t (1 : Fin 2) * 128 + 1 * (j 1).val = (j 1).val; omega
  · show (j 1).val = win2_6.index t (1 : Fin 2) * 128 + 1 * (j 1).val; omega

/-- An entry of the result array is in point t's block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v55).slice (win2_6.rect t)).set ↔ _
  rw [View.set_slice_whole, Rect.mem_set_unit]
  exact Iff.rfl

/-- The 20 blocks fill the array: row r lies in block r / 5000, since 100000 = 20 · 5000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨h00, h01, h10, h11, h20, h21, h30, h31, h40, h41, h50, h51, h60, h61⟩ := idx_facts2 t
  refine ⟨t, flush2_6 t, ?_⟩
  rw [mem_blk2]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- After region 2 the result array is the normalisation of H plus the bias row, with the rows of column means,
    column variances, scales and shifts as the region finds them. -/
theorem normed2 (c : Dev nD) :
    (dat2 (F := Ideal) V c).arrAt 6 cfg2.N
      = Cert.Gcn.normRelu (Cert.RowBias.addRow (V c main_v43) (V c main_v52)) (V c main_v47) (V c main_v51)
        (V c main_v53) (V c main_v54) :=
  (dat2 (F := Ideal) V c).arrAt_eq_of_cover 6
    (Cert.Gcn.normRelu (Cert.RowBias.addRow (V c main_v43) (V c main_v52)) (V c main_v47) (V c main_v51)
      (V c main_v53) (V c main_v54))
    (fun t _ => flushed2_eq V c t) cover2

/-! ## Region 5 -/

/-- Where point t of the grid places each window's block: the blocks of H and of the result are the t-th of their
    arrays' 20 row blocks, and every row window stays on its one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The bias window's block at any point is the whole row of biases. -/
theorem row5_1 (c : Dev nD) (t : Fin cfg5.N) :
    (iblk5 V c 1 t : S1x128.Idx → EReal) = (V c main_v78 : S1x128.Idx → EReal) := by
  obtain ⟨h00, h01, h10, h11, h20, h21, h30, h31, h40, h41, h50, h51, h60, h61⟩ := idx_facts5 t
  funext y
  unfold iblk5
  rw [View.read_apply]
  show V c main_v78 (((cfg5.win 1).blk t).view.emb y) = V c main_v78 y
  refine congrArg (V c main_v78) (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The mean window's block at any point is the whole row of means. -/
theorem row5_2 (c : Dev nD) (t : Fin cfg5.N) :
    (iblk5 V c 2 t : S1x128.Idx → EReal) = (V c main_v73 : S1x128.Idx → EReal) := by
  obtain ⟨h00, h01, h10, h11, h20, h21, h30, h31, h40, h41, h50, h51, h60, h61⟩ := idx_facts5 t
  funext y
  unfold iblk5
  rw [View.read_apply]
  show V c main_v73 (((cfg5.win 2).blk t).view.emb y) = V c main_v73 y
  refine congrArg (V c main_v73) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The variance window's block at any point is the whole row of variances. -/
theorem row5_3 (c : Dev nD) (t : Fin cfg5.N) :
    (iblk5 V c 3 t : S1x128.Idx → EReal) = (V c main_v77 : S1x128.Idx → EReal) := by
  obtain ⟨h00, h01, h10, h11, h20, h21, h30, h31, h40, h41, h50, h51, h60, h61⟩ := idx_facts5 t
  funext y
  unfold iblk5
  rw [View.read_apply]
  show V c main_v77 (((cfg5.win 3).blk t).view.emb y) = V c main_v77 y
  refine congrArg (V c main_v77) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The scale window's block at any point is the whole row of scales. -/
theorem row5_4 (c : Dev nD) (t : Fin cfg5.N) :
    (iblk5 V c 4 t : S1x128.Idx → EReal) = (V c main_v79 : S1x128.Idx → EReal) := by
  obtain ⟨h00, h01, h10, h11, h20, h21, h30, h31, h40, h41, h50, h51, h60, h61⟩ := idx_facts5 t
  funext y
  unfold iblk5
  rw [View.read_apply]
  show V c main_v79 (((cfg5.win 4).blk t).view.emb y) = V c main_v79 y
  refine congrArg (V c main_v79) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- The shift window's block at any point is the whole row of shifts. -/
theorem row5_5 (c : Dev nD) (t : Fin cfg5.N) :
    (iblk5 V c 5 t : S1x128.Idx → EReal) = (V c main_v80 : S1x128.Idx → EReal) := by
  obtain ⟨h00, h01, h10, h11, h20, h21, h30, h31, h40, h41, h50, h51, h60, h61⟩ := idx_facts5 t
  funext y
  unfold iblk5
  rw [View.read_apply]
  show V c main_v80 (((cfg5.win 5).blk t).view.emb y) = V c main_v80 y
  refine congrArg (V c main_v80) (funext fun a => Fin.ext ?_)
  match a with
  | ⟨0, _⟩ => show win5_5.index t (0 : Fin 2) * 1 + 1 * (y 0).val = (y 0).val; omega
  | ⟨1, _⟩ => show win5_5.index t (1 : Fin 2) * 128 + 1 * (y 1).val = (y 1).val; omega

/-- Entry y of H's block at point t is entry (5000·t + y₀, y₁) of H. -/
theorem block5_0 (c : Dev nD) (t : Fin cfg5.N) (y : S5000x128.Idx) (k : S100000x128.Idx)
    (hk0 : (k 0).val = t.val * 5000 + (y 0).val) (hk1 : (k 1).val = (y 1).val) :
    (iblk5 V c 0 t : S5000x128.Idx → EReal) y = (V c main_v69 : S100000x128.Idx → EReal) k := by
  obtain ⟨h00, h01, h10, h11, h20, h21, h30, h31, h40, h41, h50, h51, h60, h61⟩ := idx_facts5 t
  unfold iblk5
  rw [View.read_apply]
  show V c main_v69 (((cfg5.win 0).blk t).view.emb y) = V c main_v69 k
  refine congrArg (V c main_v69) (funext fun a => Fin.ext ?_)
  match a with
  | ⟨0, _⟩ => show win5_0.index t (0 : Fin 2) * 5000 + 1 * (y 0).val = (k 0).val; omega
  | ⟨1, _⟩ => show win5_0.index t (1 : Fin 2) * 128 + 1 * (y 1).val = (k 1).val; omega

/-- What point t writes back is block t of the normalisation of the whole of H: rows 5000·t … 5000·t + 4999. -/
theorem flushed5_eq (c : Dev nD) (t : Fin cfg5.N) :
    (dat5 (F := Ideal) V c).flushed 6 t = ((cfg5.win 6).blk t).view.read (Elt Ideal)
      (Cert.Gcn.normRelu (Cert.RowBias.addRow (V c main_v69) (V c main_v78)) (V c main_v73) (V c main_v77)
        (V c main_v79) (V c main_v80)) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz]
  rw [pay5_eq]
  obtain ⟨h00, h01, h10, h11, h20, h21, h30, h31, h40, h41, h50, h51, h60, h61⟩ := idx_facts5 t
  funext j
  show Cert.Gcn.normRelu (Cert.RowBias.addRow (iblk5 V c 0 t) (iblk5 V c 1 t)) (iblk5 V c 2 t) (iblk5 V c 3 t)
        (iblk5 V c 4 t) (iblk5 V c 5 t) j
      = Cert.Gcn.normRelu (Cert.RowBias.addRow (V c main_v69) (V c main_v78)) (V c main_v73) (V c main_v77)
        (V c main_v79) (V c main_v80) (((cfg5.win 6).blk t).view.emb j)
  rw [row5_1 V c t, row5_2 V c t, row5_3 V c t, row5_4 V c t, row5_5 V c t]
  refine normRelu_at (iblk5 V c 0 t) (V c main_v69) (V c main_v78) (V c main_v73) (V c main_v77) (V c main_v79)
    (V c main_v80) j (((cfg5.win 6).blk t).view.emb j)
    (block5_0 V c t j (((cfg5.win 6).blk t).view.emb j) ?_ ?_) (congrArg (ix2 0) (Fin.ext ?_))
  · show win5_6.index t (0 : Fin 2) * 5000 + 1 * (j 0).val = t.val * 5000 + (j 0).val; omega
  · show win5_6.index t (1 : Fin 2) * 128 + 1 * (j 1).val = (j 1).val; omega
  · show (j 1).val = win5_6.index t (1 : Fin 2) * 128 + 1 * (j 1).val; omega

/-- An entry of the result array is in point t's block iff each coordinate is in the block's range on its axis. -/
theorem mem_blk5 (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v81).slice (win5_6.rect t)).set ↔ _
  rw [View.set_slice_whole, Rect.mem_set_unit]
  exact Iff.rfl

/-- The 20 blocks fill the array: row r lies in block r / 5000, since 100000 = 20 · 5000. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨h00, h01, h10, h11, h20, h21, h30, h31, h40, h41, h50, h51, h60, h61⟩ := idx_facts5 t
  refine ⟨t, flush5_6 t, ?_⟩
  rw [mem_blk5]
  intro a
  match a with
  | ⟨0, _⟩ =>
    show win5_6.index t (0 : Fin 2) * 5000 ≤ (i 0).val ∧ (i 0).val < win5_6.index t (0 : Fin 2) * 5000 + 5000
    omega
  | ⟨1, _⟩ =>
    show win5_6.index t (1 : Fin 2) * 128 ≤ (i 1).val ∧ (i 1).val < win5_6.index t (1 : Fin 2) * 128 + 128
    omega

/-- After region 5 the result array is the normalisation of H plus the bias row, with the rows of column means,
    column variances, scales and shifts as the region finds them. -/
theorem normed5 (c : Dev nD) :
    (dat5 (F := Ideal) V c).arrAt 6 cfg5.N
      = Cert.Gcn.normRelu (Cert.RowBias.addRow (V c main_v69) (V c main_v78)) (V c main_v73) (V c main_v77)
        (V c main_v79) (V c main_v80) :=
  (dat5 (F := Ideal) V c).arrAt_eq_of_cover 6
    (Cert.Gcn.normRelu (Cert.RowBias.addRow (V c main_v69) (V c main_v78)) (V c main_v73) (V c main_v77)
      (V c main_v79) (V c main_v80))
    (fun t _ => flushed5_eq V c t) cover5

end Cert.KernelIdeal.RegionNorm

end
-- ==== Proof.KernelValue.lean ====
/-
  What the idealized kernel leaves in its result buffer, as one function of its arguments.

  The program's segments are walked from the launch to the return. A region's output array is the whole-array
  function its blocks are pieces of; a stretch of host operations is read off as values; a buffer nobody writes
  in between is carried along. Layer by layer the pieces fold into the network computed with the variance
  taken through the moments: the product with the weights (a region), the sum over the edges (host), the column
  sums and sums of squares (a region), the mean and variance (host), the normalisation (a region).
-/
import proofs.«102224_j12773232738363_1_alg».proof.Proof.Gen.KernelIdeal.Frame
import proofs.«102224_j12773232738363_1_alg».proof.Proof.Model
import proofs.«102224_j12773232738363_1_alg».proof.Proof.KernelKeeps
import proofs.«102224_j12773232738363_1_alg».proof.Proof.KernelKeepsEdges
import proofs.«102224_j12773232738363_1_alg».proof.Proof.KernelHost
import proofs.«102224_j12773232738363_1_alg».proof.Proof.RegionLinear
import proofs.«102224_j12773232738363_1_alg».proof.Proof.RegionStats
import proofs.«102224_j12773232738363_1_alg».proof.Proof.RegionNorm

set_option maxRecDepth 16384

noncomputable section

namespace Cert.KernelIdeal.KernelValue

open Cert.KernelIdeal Cert.KernelIdeal.Gen
open Idealize.ShloMosaic Idealize.ShloMosaic.TcCoe Idealize.SL.Sem
open Cert.Gcn Cert.RowBias Cert.RowsProduct Cert.EdgeSum
open Cert.KernelIdeal.Keeps Cert.KernelIdeal.KeepsEdges Cert.KernelIdeal.HostStages

variable (m : (ℓ : Loc nD τ sig) → Buf (Elt Ideal) ℓ) (ρ : Dev nD → PrngReg) (c : Dev nD)

/-- The column of source rows, the column of target rows and the edge weights, as the host prefix leaves them. -/
abbrev srcs : IVec S1700000x1 32 := srcCol (W3 m ρ c (Proc.devRef .tc main_v3))
abbrev dsts : IVec S1700000x1 32 := dstCol (W3 m ρ c (Proc.devRef .tc main_v6))
abbrev wts : FVec Ideal S1700000 .f32 := (W3 m ρ c (Proc.devRef .tc main_v29))

/-! ## Layer 1 -/

/-- The first layer's input to the normalisation. -/
abbrev H1 : Mat 100000 128 :=
  conv (m ((c : Thread nD τ).loc main_arg0)) (m ((c : Thread nD τ).loc main_arg2)) (asRow (m ((c : Thread nD τ).loc main_arg3))) (srcs m ρ c) (dsts m ρ c) (wts m ρ c)

theorem product1 : (W4 m ρ c (Proc.devRef .tc main_v30)) = rowsTimes (m ((c : Thread nD τ).loc main_arg0)) (m ((c : Thread nD τ).loc main_arg2)) := by
  refine (W4_arr m ρ c 2).trans ((RegionLinear.product0 (V3 m ρ) c).trans ?_)
  show rowsTimes (W3 m ρ c (Proc.devRef .tc main_arg0)) (W3 m ρ c (Proc.devRef .tc main_arg2)) = _
  rw [at3_arg0 m ρ c, at3_arg2 m ρ c]

theorem summed1 : (W5 m ρ c (Proc.devRef .tc main_v43))
    = edgeSum nodes_pos (Ideal.ofBits .f32 0x00000000#32) (rowsTimes (m ((c : Thread nD τ).loc main_arg0)) (m ((c : Thread nD τ).loc main_arg2)))
        (srcs m ρ c) (dsts m ρ c) (wts m ρ c) := by
  show StableHlo.after hostOps1 (W4 m ρ c) (Proc.devRef .tc main_v43) = _
  rw [agg1 (W4 m ρ c), product1 m ρ c, at4_v3 m ρ c, at4_v6 m ρ c, at4_v29 m ρ c]

theorem biasRow1 : (W5 m ρ c (Proc.devRef .tc main_v44)) = asRow (m ((c : Thread nD τ).loc main_arg3)) := by
  show StableHlo.after hostOps1 (W4 m ρ c) (Proc.devRef .tc main_v44) = _
  rw [bias1 (W4 m ρ c), at4_arg3 m ρ c]

theorem sum1 : (W6 m ρ c (Proc.devRef .tc main_v45_0)) = colSum (H1 m ρ c) := by
  refine (W6_arr m ρ c 2).trans ((RegionStats.sums1 (V5 m ρ) c).trans ?_)
  show colSum (addRow (W5 m ρ c (Proc.devRef .tc main_v43)) (W5 m ρ c (Proc.devRef .tc main_v44))) = _
  rw [summed1 m ρ c, biasRow1 m ρ c]
  rfl

theorem sumsq1 : (W6 m ρ c (Proc.devRef .tc main_v45_1)) = colSum (sqr (H1 m ρ c)) := by
  refine (W6_arr m ρ c 3).trans ((RegionStats.squares1 (V5 m ρ) c).trans ?_)
  show colSum (sqr (addRow (W5 m ρ c (Proc.devRef .tc main_v43)) (W5 m ρ c (Proc.devRef .tc main_v44)))) = _
  rw [summed1 m ρ c, biasRow1 m ρ c]
  rfl

theorem hidden1 : (W8 m ρ c (Proc.devRef .tc main_v55))
    = normalised varMoments (H1 m ρ c) (asRow (m ((c : Thread nD τ).loc main_arg4))) (asRow (m ((c : Thread nD τ).loc main_arg5))) := by
  refine (W8_arr m ρ c 6).trans ((RegionNorm.normed2 (V7 m ρ) c).trans ?_)
  show normRelu (addRow (W7 m ρ c (Proc.devRef .tc main_v43)) (StableHlo.after hostOps2 (W6 m ρ c) (Proc.devRef .tc main_v52)))
      (StableHlo.after hostOps2 (W6 m ρ c) (Proc.devRef .tc main_v47))
      (StableHlo.after hostOps2 (W6 m ρ c) (Proc.devRef .tc main_v51))
      (StableHlo.after hostOps2 (W6 m ρ c) (Proc.devRef .tc main_v53))
      (StableHlo.after hostOps2 (W6 m ρ c) (Proc.devRef .tc main_v54)) = _
  rw [at7_v43 m ρ c, summed1 m ρ c, bias2 (W6 m ρ c), mean2 (W6 m ρ c), var2 (W6 m ρ c), scale2 (W6 m ρ c),
    shift2 (W6 m ρ c), sum1 m ρ c, sumsq1 m ρ c, at6_arg3 m ρ c, at6_arg4 m ρ c, at6_arg5 m ρ c]
  rfl

/-! ## Layer 2 -/

abbrev X2 : Mat 100000 128 := normalised varMoments (H1 m ρ c) (asRow (m ((c : Thread nD τ).loc main_arg4))) (asRow (m ((c : Thread nD τ).loc main_arg5)))

abbrev H2 : Mat 100000 128 :=
  conv (X2 m ρ c) (m ((c : Thread nD τ).loc main_arg6)) (asRow (m ((c : Thread nD τ).loc main_arg7))) (srcs m ρ c) (dsts m ρ c) (wts m ρ c)

theorem product2 : (W9 m ρ c (Proc.devRef .tc main_v56)) = rowsTimes (X2 m ρ c) (m ((c : Thread nD τ).loc main_arg6)) := by
  refine (W9_arr m ρ c 2).trans ((RegionLinear.product3 (V8 m ρ) c).trans ?_)
  show rowsTimes (W8 m ρ c (Proc.devRef .tc main_v55)) (W8 m ρ c (Proc.devRef .tc main_arg6)) = _
  rw [hidden1 m ρ c, at8_arg6 m ρ c]

theorem summed2 : (W10 m ρ c (Proc.devRef .tc main_v69))
    = edgeSum nodes_pos (Ideal.ofBits .f32 0x00000000#32) (rowsTimes (X2 m ρ c) (m ((c : Thread nD τ).loc main_arg6)))
        (srcs m ρ c) (dsts m ρ c) (wts m ρ c) := by
  show StableHlo.after hostOps4 (W9 m ρ c) (Proc.devRef .tc main_v69) = _
  rw [agg4 (W9 m ρ c), product2 m ρ c, at9_v3 m ρ c, at9_v6 m ρ c, at9_v29 m ρ c]

theorem biasRow2 : (W10 m ρ c (Proc.devRef .tc main_v70)) = asRow (m ((c : Thread nD τ).loc main_arg7)) := by
  show StableHlo.after hostOps4 (W9 m ρ c) (Proc.devRef .tc main_v70) = _
  rw [bias4 (W9 m ρ c), at9_arg7 m ρ c]

theorem sum2 : (W11 m ρ c (Proc.devRef .tc main_v71_0)) = colSum (H2 m ρ c) := by
  refine (W11_arr m ρ c 2).trans ((RegionStats.sums4 (V10 m ρ) c).trans ?_)
  show colSum (addRow (W10 m ρ c (Proc.devRef .tc main_v69)) (W10 m ρ c (Proc.devRef .tc main_v70))) = _
  rw [summed2 m ρ c, biasRow2 m ρ c]
  rfl

theorem sumsq2 : (W11 m ρ c (Proc.devRef .tc main_v71_1)) = colSum (sqr (H2 m ρ c)) := by
  refine (W11_arr m ρ c 3).trans ((RegionStats.squares4 (V10 m ρ) c).trans ?_)
  show colSum (sqr (addRow (W10 m ρ c (Proc.devRef .tc main_v69)) (W10 m ρ c (Proc.devRef .tc main_v70)))) = _
  rw [summed2 m ρ c, biasRow2 m ρ c]
  rfl

theorem hidden2 : (W13 m ρ c (Proc.devRef .tc main_v81))
    = normalised varMoments (H2 m ρ c) (asRow (m ((c : Thread nD τ).loc main_arg8))) (asRow (m ((c : Thread nD τ).loc main_arg9))) := by
  refine (W13_arr m ρ c 6).trans ((RegionNorm.normed5 (V12 m ρ) c).trans ?_)
  show normRelu (addRow (W12 m ρ c (Proc.devRef .tc main_v69)) (StableHlo.after hostOps5 (W11 m ρ c) (Proc.devRef .tc main_v78)))
      (StableHlo.after hostOps5 (W11 m ρ c) (Proc.devRef .tc main_v73))
      (StableHlo.after hostOps5 (W11 m ρ c) (Proc.devRef .tc main_v77))
      (StableHlo.after hostOps5 (W11 m ρ c) (Proc.devRef .tc main_v79))
      (StableHlo.after hostOps5 (W11 m ρ c) (Proc.devRef .tc main_v80)) = _
  rw [at12_v69 m ρ c, summed2 m ρ c, bias5 (W11 m ρ c), mean5 (W11 m ρ c), var5 (W11 m ρ c), scale5 (W11 m ρ c),
    shift5 (W11 m ρ c), sum2 m ρ c, sumsq2 m ρ c, at11_arg7 m ρ c, at11_arg8 m ρ c, at11_arg9 m ρ c]
  rfl

/-! ## Layer 3 -/

abbrev X3 : Mat 100000 128 := normalised varMoments (H2 m ρ c) (asRow (m ((c : Thread nD τ).loc main_arg8))) (asRow (m ((c : Thread nD τ).loc main_arg9)))

theorem product3 : (W14 m ρ c (Proc.devRef .tc main_v82)) = rowsTimes (X3 m ρ c) (m ((c : Thread nD τ).loc main_arg10)) := by
  refine (W14_arr m ρ c 2).trans ((RegionLinear.product6 (V13 m ρ) c).trans ?_)
  show rowsTimes (W13 m ρ c (Proc.devRef .tc main_v81)) (W13 m ρ c (Proc.devRef .tc main_arg10)) = _
  rw [hidden2 m ρ c, at13_arg10 m ρ c]

theorem summed3 : (W15 m ρ c (Proc.devRef .tc main_v95))
    = edgeSum nodes_pos (Ideal.ofBits .f32 0x00000000#32) (rowsTimes (X3 m ρ c) (m ((c : Thread nD τ).loc main_arg10)))
        (srcs m ρ c) (dsts m ρ c) (wts m ρ c) := by
  show StableHlo.after hostOps7 (W14 m ρ c) (Proc.devRef .tc main_v95) = _
  rw [agg7 (W14 m ρ c), product3 m ρ c, at14_v3 m ρ c, at14_v6 m ρ c, at14_v29 m ρ c]

theorem biasRow3 : (W15 m ρ c (Proc.devRef .tc main_v96)) = asRow (m ((c : Thread nD τ).loc main_arg11)) := by
  show StableHlo.after hostOps7 (W14 m ρ c) (Proc.devRef .tc main_v96) = _
  rw [bias7 (W14 m ρ c), at14_arg11 m ρ c]

/-- The result buffer after the last region: the network with the variance through the moments. -/
theorem value : (W16 m ρ c (Proc.devRef .tc main_v97))
    = model varMoments (m ((c : Thread nD τ).loc main_arg0)) (srcs m ρ c) (dsts m ρ c) (wts m ρ c)
        (m ((c : Thread nD τ).loc main_arg2)) (asRow (m ((c : Thread nD τ).loc main_arg3))) (asRow (m ((c : Thread nD τ).loc main_arg4))) (asRow (m ((c : Thread nD τ).loc main_arg5)))
        (m ((c : Thread nD τ).loc main_arg6)) (asRow (m ((c : Thread nD τ).loc main_arg7))) (asRow (m ((c : Thread nD τ).loc main_arg8))) (asRow (m ((c : Thread nD τ).loc main_arg9)))
        (m ((c : Thread nD τ).loc main_arg10)) (asRow (m ((c : Thread nD τ).loc main_arg11))) := by
  refine (W16_arr m ρ c 2).trans ((RegionLinear.biased7 (V15 m ρ) c).trans ?_)
  show addRow (W15 m ρ c (Proc.devRef .tc main_v95)) (W15 m ρ c (Proc.devRef .tc main_v96)) = _
  rw [summed3 m ρ c, biasRow3 m ρ c]
  rfl

end Cert.KernelIdeal.KernelValue

end
-- ==== Proof.EdgeStages.lean ====
/-
  The edge lists and the edge weights, before the first region.

  Before its first region the kernel program computes, by host operations, the source and target lists of the
  edges with one self-loop per node appended, the degree of every node as a scatter-add of ones over the targets, its
  inverse square root where the degree is positive, and the weight of an edge as the product of that quantity at its
  two ends.  These are the same operations, in the same order and on the same operands, as the reference's first
  stages, so each of these three arrays is the reference's value of the same stage.
-/
import proofs.«102224_j12773232738363_1_alg».proof.Proof.Gen.KernelIdeal.Frame
import proofs.«102224_j12773232738363_1_alg».proof.Proof.RefReadP

set_option maxRecDepth 16384

noncomputable section

namespace Cert.EdgeStages

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The type of the edge list argument's contents. -/
abbrev EdgeList := (⟨S2x1600000, .i32⟩ : BufTy).Contents (Elt Ideal)

/-! ## The first stretch: the edge lists with the self-loops, the degrees, the inverse square roots -/

section Stretch0
variable (Vv : Valuation τ sig (Elt Ideal))

/-- The sources: the first row of the edge list, then one self-loop per node. -/
theorem first_sources : StableHlo.after hostOps0 Vv (Proc.devRef .tc main_v3)
    = Cert.ReferenceIdeal.Read.val_main_v3 (F := Ideal) (Vv (Proc.devRef .tc main_arg1)) := by
  after_results_simp
  rfl

/-- The targets: the second row of the edge list, then one self-loop per node. -/
theorem first_targets : StableHlo.after hostOps0 Vv (Proc.devRef .tc main_v6)
    = Cert.ReferenceIdeal.Read.val_main_v6 (F := Ideal) (Vv (Proc.devRef .tc main_arg1)) := by
  after_results_simp
  rfl

/-- Where the degree (a one added at every edge's target) is positive. -/
theorem first_positive : StableHlo.after hostOps0 Vv (Proc.devRef .tc main_v12)
    = Cert.ReferenceIdeal.Read.val_main_v12 (F := Ideal) (Vv (Proc.devRef .tc main_arg1)) := by
  after_results_simp
  rfl

/-- The inverse square root of the degree. -/
theorem first_rsqrt : StableHlo.after hostOps0 Vv (Proc.devRef .tc main_v13)
    = Cert.ReferenceIdeal.Read.val_main_v13 (F := Ideal) (Vv (Proc.devRef .tc main_arg1)) := by
  after_results_simp
  rfl

/-- The zero put where the degree is not positive. -/
theorem first_zero : StableHlo.after hostOps0 Vv (Proc.devRef .tc main_cst_2)
    = Cert.ReferenceIdeal.Read.val_main_cst_2 (F := Ideal) := by
  after_results_simp
  rfl

end Stretch0

/-! ## The second stretch: the inverse square root where the degree is positive, zero elsewhere -/

section Stretch1
variable (Vv : Valuation τ sig (Elt Ideal)) (x1 : EdgeList)

/-- The node factor, from the first stretch's values. -/
theorem second_factor
    (h12 : Vv (Proc.devRef .tc main_v12) = Cert.ReferenceIdeal.Read.val_main_v12 (F := Ideal) x1)
    (h13 : Vv (Proc.devRef .tc main_v13) = Cert.ReferenceIdeal.Read.val_main_v13 (F := Ideal) x1)
    (hz : Vv (Proc.devRef .tc main_cst_2) = Cert.ReferenceIdeal.Read.val_main_cst_2 (F := Ideal)) :
    StableHlo.after hostOps0_1 Vv (Proc.devRef .tc main_v14) = Cert.ReferenceIdeal.Read.val_main_v14 (F := Ideal) x1 := by
  after_results
  show select (Vv (Proc.devRef .tc main_v12)) (Vv (Proc.devRef .tc main_v13))
      (broadcastInDim S100000 ![] bcast_S_S100000 (id (Vv (Proc.devRef .tc main_cst_2)))) = _
  rw [h12, h13, hz]
  rfl

/-- The second stretch leaves the sources alone. -/
theorem second_sources : StableHlo.after hostOps0_1 Vv (Proc.devRef .tc main_v3) = Vv (Proc.devRef .tc main_v3) := by
  after_results

/-- The second stretch leaves the targets alone. -/
theorem second_targets : StableHlo.after hostOps0_1 Vv (Proc.devRef .tc main_v6) = Vv (Proc.devRef .tc main_v6) := by
  after_results

end Stretch1

/-! ## The third stretch: an edge's weight is the product of the node factor at its two ends -/

section Stretch2
variable (Vv : Valuation τ sig (Elt Ideal)) (x1 : EdgeList)

/-- The edge weights, from the earlier stretches' values. -/
theorem third_weights
    (h3 : Vv (Proc.devRef .tc main_v3) = Cert.ReferenceIdeal.Read.val_main_v3 (F := Ideal) x1)
    (h6 : Vv (Proc.devRef .tc main_v6) = Cert.ReferenceIdeal.Read.val_main_v6 (F := Ideal) x1)
    (h14 : Vv (Proc.devRef .tc main_v14) = Cert.ReferenceIdeal.Read.val_main_v14 (F := Ideal) x1) :
    StableHlo.after hostOps0_2 Vv (Proc.devRef .tc main_v29) = Cert.ReferenceIdeal.Read.val_main_v29 (F := Ideal) x1 := by
  after_results_simp
  rw [h3, h6, h14]
  rfl

/-- The third stretch leaves the sources alone. -/
theorem third_sources : StableHlo.after hostOps0_2 Vv (Proc.devRef .tc main_v3) = Vv (Proc.devRef .tc main_v3) := by
  after_results_simp

/-- The third stretch leaves the targets alone. -/
theorem third_targets : StableHlo.after hostOps0_2 Vv (Proc.devRef .tc main_v6) = Vv (Proc.devRef .tc main_v6) := by
  after_results_simp

end Stretch2

/-! ## The three arrays when the first region is entered -/

/-- The launch contents of the edge list argument, as the first stretch reads them. -/
theorem launch_edges : W0 m ρ c (Proc.devRef .tc main_arg1) = m ((c : Thread nD τ).loc main_arg1) := rfl

/-- The source list when the first region is entered is the reference's. -/
theorem sources_eq :
    W3 m ρ c (Proc.devRef .tc main_v3)
      = Cert.ReferenceIdeal.Read.val_main_v3 (F := Ideal) (m ((c : Thread nD τ).loc main_arg1)) :=
  (third_sources (W2 m ρ c)).trans ((second_sources (W1 m ρ c)).trans (first_sources (W0 m ρ c)))

/-- The target list when the first region is entered is the reference's. -/
theorem targets_eq :
    W3 m ρ c (Proc.devRef .tc main_v6)
      = Cert.ReferenceIdeal.Read.val_main_v6 (F := Ideal) (m ((c : Thread nD τ).loc main_arg1)) :=
  (third_targets (W2 m ρ c)).trans ((second_targets (W1 m ρ c)).trans (first_targets (W0 m ρ c)))

/-- The edge weights when the first region is entered are the reference's. -/
theorem weights_eq :
    W3 m ρ c (Proc.devRef .tc main_v29)
      = Cert.ReferenceIdeal.Read.val_main_v29 (F := Ideal) (m ((c : Thread nD τ).loc main_arg1)) :=
  third_weights (W2 m ρ c) (m ((c : Thread nD τ).loc main_arg1))
    ((second_sources (W1 m ρ c)).trans (first_sources (W0 m ρ c)))
    ((second_targets (W1 m ρ c)).trans (first_targets (W0 m ρ c)))
    (second_factor (W1 m ρ c) (m ((c : Thread nD τ).loc main_arg1))
      (first_positive (W0 m ρ c)) (first_rsqrt (W0 m ρ c)) (first_zero (W0 m ρ c)))

end Cert.EdgeStages

end
-- ==== Proof.RefModel1.lean ====
/-
  The host's spelling of one graph convolution, and of the normalisation between two convolutions, as whole-array
  equations: the chains of operations the reference program applies equal the functions of the model.

  A convolution is written as a product, a gather of the product's rows at the edges' sources, a multiplication
  by the edge weights stood up as a column and spread over the columns, an accumulating scatter into a zero array
  at the edges' targets, and the addition of the bias vector spread over every row.  The normalisation is written
  as a column sum divided by the number of rows (the mean), the column sum of the squared deviations divided by
  the number of rows (the variance), the reciprocal square root of the variance plus a small constant, and then
  deviation times that, times the scale, plus the shift, clamped below at zero; every row vector is spread over
  the rows by two broadcasts.
-/
import Idealize.ShloMosaic.Lib.IdealHost
import proofs.«102224_j12773232738363_1_alg».proof.Proof.Spec
import proofs.«102224_j12773232738363_1_alg».proof.Proof.Model

noncomputable section

open scoped BigOperators

namespace Cert.ReferenceIdeal.RefModel

open Idealize.ShloMosaic Idealize.ShloMosaic.ValueIdx Cert.Gcn Cert.Rows Cert.RowBias Cert.RowsProduct Cert.EdgeSum

/-- A length-C vector placed along the second axis of a 1×C row and then spread over M rows reads, at (p, q),
    the vector at q. -/
theorem spreadVec_apply {α : Type} {M C : Nat} (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![M, C]⟩ ![0, 1]) (p : Fin M) (q : Fin C) :
    broadcastInDim ⟨2, ![M, C]⟩ ![0, 1] h2 (broadcastInDim ⟨2, ![1, C]⟩ ![1] h1 v) (ix2 p q) = v (ix1 q) := by
  rw [spreadRowInDim_apply]
  exact rowInDim_apply v h1 q

/-- The host's convolution — product, gather, weights, accumulating scatter, bias — is the model's. -/
theorem hostConv_eq {K C : Nat}
    (wfg : GatherDims.WF ⟨2, ![100000, C]⟩ ⟨2, ![1700000, 1]⟩ ⟨2, ![1700000, C]⟩ [1] [0] [] [0] [] 1 ![1, C])
    (wfs : ScatterDims.WF ⟨2, ![100000, C]⟩ ⟨2, ![1700000, 1]⟩ ⟨2, ![1700000, C]⟩ [1] [0] [0] 1)
    (h0 : (⟨0, ![]⟩ : Shape).BroadcastsInDim ⟨2, ![100000, C]⟩ ![])
    (h1 : (⟨1, ![1700000]⟩ : Shape).BroadcastsInDim ⟨2, ![1700000, 1]⟩ ![0])
    (h2 : (⟨2, ![1700000, 1]⟩ : Shape).BroadcastsInDim ⟨2, ![1700000, C]⟩ ![0, 1])
    (hb1 : (⟨1, ![C]⟩ : Shape).BroadcastsInDim ⟨2, ![1, C]⟩ ![1])
    (hb2 : (⟨2, ![1, C]⟩ : Shape).BroadcastsInDim ⟨2, ![100000, C]⟩ ![0, 1])
    (x : FVec Ideal ⟨2, ![100000, K]⟩ .f32) (W : FVec Ideal ⟨2, ![K, C]⟩ .f32) (b : FVec Ideal ⟨1, ![C]⟩ .f32)
    (src dst : IVec ⟨2, ![1700000, 1]⟩ 32) (wt : FVec Ideal ⟨1, ![1700000]⟩ .f32) :
    addf (Host.scatterAdd (F := Ideal) (scatter2 100000 C 1700000 wfs)
          (broadcastInDim ⟨2, ![100000, C]⟩ ![] h0 (constant (F := Ideal) ⟨0, ![]⟩ .f32 0x00000000#32)) dst
          (mulf (Host.gather (gather2 100000 C 1700000 wfg)
              (Host.dotGeneral (F := Ideal) (DotDims.plain 100000 K C) none x W) src)
            (broadcastInDim ⟨2, ![1700000, C]⟩ ![0, 1] h2 (broadcastInDim ⟨2, ![1700000, 1]⟩ ![0] h1 wt))))
        (broadcastInDim ⟨2, ![100000, C]⟩ ![0, 1] hb2 (broadcastInDim ⟨2, ![1, C]⟩ ![1] hb1 b))
      = conv x W (asRow b) src dst wt := by
  rw [hostDot_eq_rowsTimes, scatter_gather_eq nodes_pos]
  unfold conv
  funext j
  obtain ⟨p, q, rfl⟩ : ∃ (p : Fin 100000) (q : Fin C), j = ix2 p q := ⟨j 0, j 1, eq_ix2 j⟩
  rw [addf_apply, spreadVec_apply]
  rfl

/-! ## The normalisation block -/

/-- The host's column sum from the zero word, read at column q, is the column sum. -/
theorem hostColSum_apply (red : (⟨2, ![100000, 128]⟩ : Shape).ReducesTo [0] ⟨1, ![128]⟩) (hS : 0 < (⟨0, ![]⟩ : Shape).numel)
    (A : FVec Ideal ⟨2, ![100000, 128]⟩ .f32) (q : Fin 128) :
    Host.reduceAdd (F := Ideal) A (constant (F := Ideal) ⟨0, ![]⟩ .f32 0x00000000#32) red hS (ix1 q)
      = colSum A (ix2 0 q) := by
  rw [hostReduceAdd_apply, Ideal.hostReduceAdd_single red (by decide), constant_apply, Ideal.ofBits_zero_f32, zero_add]
  unfold colSum
  refine Finset.sum_congr rfl fun k _ => ?_
  exact congrArg A (funext fun a => Fin.ext (by match a with | ⟨0, _⟩ => rfl | ⟨1, _⟩ => rfl))

/-- The host's column sum, from the zero word, of an array times itself is the column sum of its squares. -/
theorem hostColSumSq_apply (red : (⟨2, ![100000, 128]⟩ : Shape).ReducesTo [0] ⟨1, ![128]⟩) (hS : 0 < (⟨0, ![]⟩ : Shape).numel)
    (A : FVec Ideal ⟨2, ![100000, 128]⟩ .f32) (q : Fin 128) :
    Host.reduceAdd (F := Ideal) (mulf A A) (constant (F := Ideal) ⟨0, ![]⟩ .f32 0x00000000#32) red hS (ix1 q)
      = colSum (sqr A) (ix2 0 q) :=
  hostColSum_apply red hS (mulf A A) q

/-- The host's reciprocal square root at an index. -/
theorem hostRsqrt_apply {s : Shape} (a : FVec Ideal s .f32) (i : s.Idx) : Host.rsqrt (F := Ideal) a i = Ideal.rsqrt (a i) := rfl

/-- The host's column mean: the column sum from zero divided by the number of rows spread over the columns. -/
def hostMean (red : (⟨2, ![100000, 128]⟩ : Shape).ReducesTo [0] ⟨1, ![128]⟩) (hS : 0 < (⟨0, ![]⟩ : Shape).numel)
    (b0 : (⟨0, ![]⟩ : Shape).BroadcastsInDim ⟨1, ![128]⟩ ![])
    (A : FVec Ideal ⟨2, ![100000, 128]⟩ .f32) : FVec Ideal ⟨1, ![128]⟩ .f32 :=
  Host.divf (F := Ideal) (Host.reduceAdd (F := Ideal) A (constant (F := Ideal) ⟨0, ![]⟩ .f32 0x00000000#32) red hS)
    (broadcastInDim ⟨1, ![128]⟩ ![] b0 (constant (F := Ideal) ⟨0, ![]⟩ .f32 0x47C35000#32))

/-- The host's column mean at column q is the mean row of the column sums. -/
theorem hostMean_apply (red : (⟨2, ![100000, 128]⟩ : Shape).ReducesTo [0] ⟨1, ![128]⟩) (hS : 0 < (⟨0, ![]⟩ : Shape).numel)
    (b0 : (⟨0, ![]⟩ : Shape).BroadcastsInDim ⟨1, ![128]⟩ ![])
    (A : FVec Ideal ⟨2, ![100000, 128]⟩ .f32) (q : Fin 128) :
    hostMean red hS b0 A (ix1 q) = meanRow (colSum A) (ix2 0 q) := by
  unfold hostMean
  rw [hostDivf_apply, hostColSum_apply, broadcastInDim_scalar_apply, constant_apply]
  rfl

/-- The host's normalisation block as one function of the array, the scale vector and the shift vector. -/
def hostNorm (red : (⟨2, ![100000, 128]⟩ : Shape).ReducesTo [0] ⟨1, ![128]⟩) (hS : 0 < (⟨0, ![]⟩ : Shape).numel)
    (b0 : (⟨0, ![]⟩ : Shape).BroadcastsInDim ⟨1, ![128]⟩ ![])
    (b1 : (⟨1, ![128]⟩ : Shape).BroadcastsInDim ⟨2, ![1, 128]⟩ ![1])
    (b2 : (⟨2, ![1, 128]⟩ : Shape).BroadcastsInDim ⟨2, ![100000, 128]⟩ ![0, 1])
    (b00 : (⟨0, ![]⟩ : Shape).BroadcastsInDim ⟨2, ![100000, 128]⟩ ![])
    (H : FVec Ideal ⟨2, ![100000, 128]⟩ .f32) (g be : FVec Ideal ⟨1, ![128]⟩ .f32) : FVec Ideal ⟨2, ![100000, 128]⟩ .f32 :=
  maximumf
    (addf
      (mulf
        (mulf
          (subf H (broadcastInDim ⟨2, ![100000, 128]⟩ ![0, 1] b2 (broadcastInDim ⟨2, ![1, 128]⟩ ![1] b1 (hostMean red hS b0 H))))
          (broadcastInDim ⟨2, ![100000, 128]⟩ ![0, 1] b2 (broadcastInDim ⟨2, ![1, 128]⟩ ![1] b1
            (Host.rsqrt (F := Ideal)
              (addf
                (Host.divf (F := Ideal)
                  (Host.reduceAdd (F := Ideal)
                    (mulf
                      (subf H (broadcastInDim ⟨2, ![100000, 128]⟩ ![0, 1] b2 (broadcastInDim ⟨2, ![1, 128]⟩ ![1] b1 (hostMean red hS b0 H))))
                      (subf H (broadcastInDim ⟨2, ![100000, 128]⟩ ![0, 1] b2 (broadcastInDim ⟨2, ![1, 128]⟩ ![1] b1 (hostMean red hS b0 H)))))
                    (constant (F := Ideal) ⟨0, ![]⟩ .f32 0x00000000#32) red hS)
                  (broadcastInDim ⟨1, ![128]⟩ ![] b0 (constant (F := Ideal) ⟨0, ![]⟩ .f32 0x47C35000#32)))
                (broadcastInDim ⟨1, ![128]⟩ ![] b0 (constant (F := Ideal) ⟨0, ![]⟩ .f32 0x3727C5AC#32)))))))
        (broadcastInDim ⟨2, ![100000, 128]⟩ ![0, 1] b2 (broadcastInDim ⟨2, ![1, 128]⟩ ![1] b1 g)))
      (broadcastInDim ⟨2, ![100000, 128]⟩ ![0, 1] b2 (broadcastInDim ⟨2, ![1, 128]⟩ ![1] b1 be)))
    (broadcastInDim ⟨2, ![100000, 128]⟩ ![] b00 (constant (F := Ideal) ⟨0, ![]⟩ .f32 0x00000000#32))

/-- The deviations from the host's column mean are the array centred at the mean row. -/
theorem hostCentred_eq (red : (⟨2, ![100000, 128]⟩ : Shape).ReducesTo [0] ⟨1, ![128]⟩) (hS : 0 < (⟨0, ![]⟩ : Shape).numel)
    (b0 : (⟨0, ![]⟩ : Shape).BroadcastsInDim ⟨1, ![128]⟩ ![])
    (b1 : (⟨1, ![128]⟩ : Shape).BroadcastsInDim ⟨2, ![1, 128]⟩ ![1])
    (b2 : (⟨2, ![1, 128]⟩ : Shape).BroadcastsInDim ⟨2, ![100000, 128]⟩ ![0, 1])
    (H : FVec Ideal ⟨2, ![100000, 128]⟩ .f32) :
    subf H (broadcastInDim ⟨2, ![100000, 128]⟩ ![0, 1] b2 (broadcastInDim ⟨2, ![1, 128]⟩ ![1] b1 (hostMean red hS b0 H)))
      = centred H (meanRow (colSum H)) := by
  funext i
  obtain ⟨p, q, rfl⟩ : ∃ (p : Fin 100000) (q : Fin 128), i = ix2 p q := ⟨i 0, i 1, eq_ix2 i⟩
  rw [subf_apply, spreadVec_apply, hostMean_apply]
  rfl

/-- The host's normalisation block is the model's: mean, direct variance, scale, shift, clamp. -/
theorem hostNorm_eq (red : (⟨2, ![100000, 128]⟩ : Shape).ReducesTo [0] ⟨1, ![128]⟩) (hS : 0 < (⟨0, ![]⟩ : Shape).numel)
    (b0 : (⟨0, ![]⟩ : Shape).BroadcastsInDim ⟨1, ![128]⟩ ![])
    (b1 : (⟨1, ![128]⟩ : Shape).BroadcastsInDim ⟨2, ![1, 128]⟩ ![1])
    (b2 : (⟨2, ![1, 128]⟩ : Shape).BroadcastsInDim ⟨2, ![100000, 128]⟩ ![0, 1])
    (b00 : (⟨0, ![]⟩ : Shape).BroadcastsInDim ⟨2, ![100000, 128]⟩ ![])
    (H : FVec Ideal ⟨2, ![100000, 128]⟩ .f32) (g be : FVec Ideal ⟨1, ![128]⟩ .f32) :
    hostNorm red hS b0 b1 b2 b00 H g be = normalised varDirect H (asRow g) (asRow be) := by
  unfold hostNorm
  rw [hostCentred_eq]
  funext i
  obtain ⟨p, q, rfl⟩ : ∃ (p : Fin 100000) (q : Fin 128), i = ix2 p q := ⟨i 0, i 1, eq_ix2 i⟩
  rw [maximumf_apply, addf_apply, mulf_apply, mulf_apply, spreadVec_apply, spreadVec_apply, spreadVec_apply,
    hostRsqrt_apply, addf_apply, hostDivf_apply, hostColSumSq_apply,
    broadcastInDim_scalar_apply, broadcastInDim_scalar_apply, broadcastInDim_scalar_apply,
    constant_apply, constant_apply, constant_apply]
  rfl

end Cert.ReferenceIdeal.RefModel

end
-- ==== Proof.RefModel.lean ====
import proofs.«102224_j12773232738363_1_alg».proof.Defs
import proofs.«102224_j12773232738363_1_alg».proof.Proof.RefReadP
import proofs.«102224_j12773232738363_1_alg».proof.Proof.Spec
import proofs.«102224_j12773232738363_1_alg».proof.Proof.Model
import proofs.«102224_j12773232738363_1_alg».proof.Proof.RefModel1

/-
  The reference program's result is the model: three convolutions over the same edges, the first two followed by
  the normalisation with the variance taken directly.

  Each layer of the program is read as a whole array.  A convolution's operations — the product, the gather at the
  source column, the multiplication by the weights, the accumulating scatter at the target column, the bias — are
  the host's convolution chain applied to the layer's input, and so the model's convolution; the operations between
  two convolutions are the host's normalisation block applied to the convolution's result, and so the model's
  normalisation.  Layers two and three print their own copies of the two index columns; each copy is the same
  integer chain of the edge list as layer one's, so it is the same column.
-/

noncomputable section

namespace Cert.ReferenceIdeal.RefModel

open Cert.ReferenceIdeal Cert.ReferenceIdeal.Gen Cert.ReferenceIdeal.Read Idealize.ShloMosaic
  Idealize.ShloMosaic.ValueIdx Cert.Gcn Cert.Rows

/-! ## The index columns of layers two and three are layer one's -/

theorem src2_eq (x1 : (⟨S2x1600000, .i32⟩ : BufTy).Contents (Elt Ideal)) : val_main_v79 (F := Ideal) x1 = val_main_v36 (F := Ideal) x1 := rfl
theorem dst2_eq (x1 : (⟨S2x1600000, .i32⟩ : BufTy).Contents (Elt Ideal)) : val_main_v85 (F := Ideal) x1 = val_main_v42 (F := Ideal) x1 := rfl
theorem src3_eq (x1 : (⟨S2x1600000, .i32⟩ : BufTy).Contents (Elt Ideal)) : val_main_v122 (F := Ideal) x1 = val_main_v36 (F := Ideal) x1 := rfl
theorem dst3_eq (x1 : (⟨S2x1600000, .i32⟩ : BufTy).Contents (Elt Ideal)) : val_main_v128 (F := Ideal) x1 = val_main_v42 (F := Ideal) x1 := rfl

/-! ## Layer one -/

/-- Layer one's convolution. -/
theorem conv1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v46 (F := Ideal) x0 x1 x2 x3
      = conv (K := 128) (C := 128) x0 x2 (asRow (N := 128) x3) (val_main_v36 (F := Ideal) x1) (val_main_v42 (F := Ideal) x1)
          (val_main_v29 (F := Ideal) x1) := by
  unfold val_main_v46 val_main_v45 val_main_v44 val_main_v43 val_main_v41 val_main_cst_8 val_main_v40 val_main_v39
    val_main_v38 val_main_v37 val_main_v30
  generalize val_main_v36 (F := Ideal) x1 = src
  generalize val_main_v42 (F := Ideal) x1 = dst
  generalize val_main_v29 (F := Ideal) x1 = wt
  exact hostConv_eq (K := 128) (C := 128) _ _ _ _ _ _ _ x0 x2 x3 src dst wt

/-- Layer one's normalisation. -/
theorem norm1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) :
    val_main_v72 (F := Ideal) x0 x1 x2 x3 x4 x5
      = normalised (C := 128) varDirect (val_main_v46 (F := Ideal) x0 x1 x2 x3) (asRow (N := 128) x4) (asRow (N := 128) x5) := by
  unfold val_main_v72 val_main_call1_v0 val_main_call1_cst val_main_v71 val_main_v70 val_main_v69 val_main_v68 val_main_v67
    val_main_v66 val_main_v65 val_main_v64 val_main_v63 val_main_v62 val_main_v61 val_main_v60 val_main_cst_13 val_main_v59
    val_main_v58 val_main_v57 val_main_v56 val_main_v55 val_main_cst_12 val_main_v54 val_main_cst_11 val_main_v53 val_main_v52
    val_main_v51 val_main_v50 val_main_v49 val_main_v48 val_main_cst_10 val_main_v47 val_main_cst_9
  generalize val_main_v46 (F := Ideal) x0 x1 x2 x3 = H
  exact hostNorm_eq _ _ _ _ _ _ H x4 x5

/-! ## Layer two -/

/-- Layer two's convolution, of layer one's normalised result. -/
theorem conv2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) :
    val_main_v89 (F := Ideal) x0 x1 x2 x3 x4 x5 x6 x7
      = conv (K := 128) (C := 128) (val_main_v72 (F := Ideal) x0 x1 x2 x3 x4 x5) x6 (asRow (N := 128) x7)
          (val_main_v36 (F := Ideal) x1) (val_main_v42 (F := Ideal) x1) (val_main_v29 (F := Ideal) x1) := by
  unfold val_main_v89 val_main_v88 val_main_v87 val_main_v86 val_main_v84 val_main_cst_16 val_main_v83 val_main_v82
    val_main_v81 val_main_v80 val_main_v73
  rw [src2_eq, dst2_eq]
  generalize val_main_v72 (F := Ideal) x0 x1 x2 x3 x4 x5 = X
  generalize val_main_v36 (F := Ideal) x1 = src
  generalize val_main_v42 (F := Ideal) x1 = dst
  generalize val_main_v29 (F := Ideal) x1 = wt
  exact hostConv_eq (K := 128) (C := 128) _ _ _ _ _ _ _ X x6 x7 src dst wt

/-- Layer two's normalisation. -/
theorem norm2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) :
    val_main_v115 (F := Ideal) x0 x1 x2 x3 x4 x5 x6 x7 x8 x9
      = normalised (C := 128) varDirect (val_main_v89 (F := Ideal) x0 x1 x2 x3 x4 x5 x6 x7) (asRow (N := 128) x8)
          (asRow (N := 128) x9) := by
  unfold val_main_v115 val_main_call2_v0 val_main_call2_cst val_main_v114 val_main_v113 val_main_v112 val_main_v111
    val_main_v110 val_main_v109 val_main_v108 val_main_v107 val_main_v106 val_main_v105 val_main_v104 val_main_v103
    val_main_cst_21 val_main_v102 val_main_v101 val_main_v100 val_main_v99 val_main_v98 val_main_cst_20 val_main_v97
    val_main_cst_19 val_main_v96 val_main_v95 val_main_v94 val_main_v93 val_main_v92 val_main_v91 val_main_cst_18
    val_main_v90 val_main_cst_17
  generalize val_main_v89 (F := Ideal) x0 x1 x2 x3 x4 x5 x6 x7 = H
  exact hostNorm_eq _ _ _ _ _ _ H x8 x9

/-! ## Layer three -/

/-- Layer three's convolution, of layer two's normalised result. -/
theorem conv3_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x64, .f32⟩ : BufTy).Contents (Elt Ideal)) (x11 : (⟨S64, .f32⟩ : BufTy).Contents (Elt Ideal)) :
    val_main_v132 (F := Ideal) x0 x1 x2 x3 x4 x5 x6 x7 x8 x9 x10 x11
      = conv (K := 128) (C := 64) (val_main_v115 (F := Ideal) x0 x1 x2 x3 x4 x5 x6 x7 x8 x9) x10 (asRow (N := 64) x11)
          (val_main_v36 (F := Ideal) x1) (val_main_v42 (F := Ideal) x1) (val_main_v29 (F := Ideal) x1) := by
  unfold val_main_v132 val_main_v131 val_main_v130 val_main_v129 val_main_v127 val_main_cst_24 val_main_v126 val_main_v125
    val_main_v124 val_main_v123 val_main_v116
  rw [src3_eq, dst3_eq]
  generalize val_main_v115 (F := Ideal) x0 x1 x2 x3 x4 x5 x6 x7 x8 x9 = X
  generalize val_main_v36 (F := Ideal) x1 = src
  generalize val_main_v42 (F := Ideal) x1 = dst
  generalize val_main_v29 (F := Ideal) x1 = wt
  exact hostConv_eq (K := 128) (C := 64) _ _ _ _ _ _ _ X x10 x11 src dst wt

/-! ## The whole program -/

/-- The reference program's result is the model with the variance taken directly, of the arguments, the source
    column after the negative-index wrap, the raw target column and the edge weights. -/
theorem reference_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x64, .f32⟩ : BufTy).Contents (Elt Ideal)) (x11 : (⟨S64, .f32⟩ : BufTy).Contents (Elt Ideal)) :
    val_main_v132 (F := Ideal) x0 x1 x2 x3 x4 x5 x6 x7 x8 x9 x10 x11
      = model varDirect x0 (val_main_v36 (F := Ideal) x1) (val_main_v42 (F := Ideal) x1) (val_main_v29 (F := Ideal) x1)
          x2 (asRow (N := 128) x3) (asRow (N := 128) x4) (asRow (N := 128) x5) x6 (asRow (N := 128) x7) (asRow (N := 128) x8)
          (asRow (N := 128) x9) x10 (asRow (N := 64) x11) := by
  unfold model
  rw [conv3_eq, norm2_eq, conv2_eq, norm1_eq, conv1_eq]

end Cert.ReferenceIdeal.RefModel

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.RefWeightsReal.lean ====
/-
  The edge weights of the reference are real numbers.

  The degree of a node is the zero word plus a finite sum of words that are each one or zero, so it is a
  real number. Where the degree is positive its inverse square root is the real (√deg)⁻¹; elsewhere the
  inverse square root is replaced by the zero word. A gather only picks entries of that vector, and the
  weight of an edge is the product of two picked entries: a product of two reals.
-/
import proofs.«102224_j12773232738363_1_alg».proof.Proof.RefReadP
import proofs.«102224_j12773232738363_1_alg».proof.Proof.LibRows1
import proofs.«102224_j12773232738363_1_alg».proof.Proof.LibEdgeSum

noncomputable section

open scoped BigOperators

namespace Cert.ReferenceIdeal.WeightsReal

open Cert.ReferenceIdeal Cert.ReferenceIdeal.Gen Idealize.ShloMosaic Idealize.ShloMosaic.ValueIdx
  Idealize.ShloMosaic.StableHlo

/-- The word of `1.0` denotes the real one. -/
theorem ofBits_one : Ideal.ofBits .f32 0x3F800000#32 = 1 := by
  simp [Ideal.ofBits, Ideal.ieee, -EReal.coe_mul]; norm_num

/-- The printed gather record is the entry-indexed gather of a vector. -/
theorem gather_eq :
    gather_S100000_S1700000x1_S1700000_n_0_n_n_0_1_1
      = Cert.Rows1.gather1 100000 1700000 gather_S100000_S1700000x1_S1700000_n_0_n_n_0_1_1_wf := rfl

/-- The printed scatter record is the entry-indexed accumulating scatter of a vector. -/
theorem scatter_eq :
    scatter_S100000_S1700000x1_S1700000_n_0_0_1
      = Cert.Rows1.scatter1 100000 1700000 scatter_S100000_S1700000x1_S1700000_n_0_0_1_wf := rfl

/-- The vector of zeros the degrees are accumulated into. -/
theorem zeros_apply (i : S100000.Idx) : Read.val_main_v8 (F := Ideal) i = 0 := by
  rw [Read.val_main_v8_apply, Read.val_main_cst_0_apply]
  exact Ideal.ofBits_zero_f32

/-- The vector of ones, one per edge, that is accumulated. -/
theorem ones_apply (i : S1700000.Idx) : Read.val_main_v7 (F := Ideal) i = 1 := by
  rw [Read.val_main_v7_apply, Read.val_main_cst_apply]
  exact ofBits_one

/-- At the exact instance the accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- A vector of reals accumulated into by real updates is a vector of reals. -/
theorem scatterAdd1_real {N M w : Nat}
    (wf : ScatterDims.WF ⟨1, ![N]⟩ ⟨2, ![M, 1]⟩ ⟨1, ![M]⟩ [] [0] [0] 1)
    (x : FVec Ideal ⟨1, ![N]⟩ .f32) (hx : ∀ i, ∃ r : ℝ, x i = (r : EReal))
    (idx : IVec ⟨2, ![M, 1]⟩ w)
    (upd : FVec Ideal ⟨1, ![M]⟩ .f32) (hupd : ∀ e, ∃ r : ℝ, upd e = (r : EReal)) (n : Fin N) :
    ∃ r : ℝ, Host.scatterAdd (F := Ideal) (Cert.Rows1.scatter1 N M wf) x idx upd (ix1 n) = (r : EReal) := by
  rw [scatterAdd_ideal, Cert.Rows1.scatterAdd1_apply]
  obtain ⟨a, ha⟩ := hx (ix1 n)
  obtain ⟨b, hb⟩ := Cert.EdgeSum.sum_real Finset.univ
    (fun e : Fin M => if (idx (ix2 e (0 : Fin 1))).toInt = (n.val : ℤ) then upd (ix1 e) else 0)
    (fun e _ => by
      split
      · exact hupd (ix1 e)
      · exact ⟨0, EReal.coe_zero.symm⟩)
  exact ⟨a + b, by rw [ha, hb, EReal.coe_add]⟩

/-- The degree of a node is a real number: zero plus a finite sum of ones and zeros. -/
theorem deg_real (x1 : (⟨S2x1600000, .i32⟩ : BufTy).Contents (Elt Ideal)) (n : S100000.Idx) :
    ∃ r : ℝ, Read.val_main_v10 (F := Ideal) x1 n = (r : EReal) := by
  unfold Read.val_main_v10
  generalize Read.val_main_v9 (F := Ideal) x1 = idx
  obtain ⟨k, rfl⟩ : ∃ k : Fin 100000, n = ix1 k := ⟨n 0, eq_ix1 n⟩
  rw [scatter_eq]
  exact scatterAdd1_real scatter_S100000_S1700000x1_S1700000_n_0_0_1_wf (Read.val_main_v8 (F := Ideal))
    (fun i => ⟨0, (zeros_apply i).trans EReal.coe_zero.symm⟩) idx (Read.val_main_v7 (F := Ideal))
    (fun e => ⟨1, (ones_apply e).trans EReal.coe_one.symm⟩) k

/-- The inverse square root of the degree, zero where the degree is not positive, is a real number. -/
theorem dinv_real (x1 : (⟨S2x1600000, .i32⟩ : BufTy).Contents (Elt Ideal)) (n : S100000.Idx) :
    ∃ r : ℝ, Read.val_main_v14 (F := Ideal) x1 n = (r : EReal) := by
  rw [Read.val_main_v14_apply, Read.val_main_v12_apply, Read.val_main_v13_apply,
    Read.val_main_v11_apply, Read.val_main_cst_1_apply,
    Read.val_main_call0_v1_apply, Read.val_main_call0_v0_apply, Read.val_main_cst_2_apply]
  obtain ⟨d, hd⟩ := deg_real x1 n
  rw [hd]
  show ∃ r : ℝ, Scalar.select (Ideal.cmp .ogt (d : EReal) (Ideal.ofBits .f32 0x00000000#32))
    (Ideal.rsqrt (d : EReal)) (Ideal.ofBits .f32 0x00000000#32) = (r : EReal)
  rw [Ideal.ofBits_zero_f32]
  unfold Scalar.select Ideal.cmp
  by_cases hpos : (0 : EReal) < (d : EReal)
  · have hd0 : (0 : ℝ) < d := by exact_mod_cast hpos
    rw [if_pos (by simp [hpos]), Ideal.rsqrt_coe, if_neg (not_lt.mpr hd0.le), if_neg hd0.ne']
    exact ⟨_, rfl⟩
  · rw [if_neg (by simp [hpos])]
    exact ⟨0, by simp⟩

/-- A gather of the inverse square roots picks one of them. -/
theorem gathered_real (x1 : (⟨S2x1600000, .i32⟩ : BufTy).Contents (Elt Ideal))
    (idx : (⟨S1700000x1, .i32⟩ : BufTy).Contents (Elt Ideal)) (e : S1700000.Idx) :
    ∃ r : ℝ, Host.gather gather_S100000_S1700000x1_S1700000_n_0_n_n_0_1_1
      (Read.val_main_v14 (F := Ideal) x1) idx e = (r : EReal) := by
  obtain ⟨k, rfl⟩ : ∃ k : Fin 1700000, e = ix1 k := ⟨e 0, eq_ix1 e⟩
  rw [gather_eq, Cert.Rows1.gather1_apply (by decide)]
  exact dinv_real x1 _

/-- Every edge weight of the reference is a real number. -/
theorem weights_real (x1 : (⟨Cert.ReferenceIdeal.S2x1600000, .i32⟩ : BufTy).Contents (Elt Ideal)) :
    ∀ e, ∃ r : ℝ, Read.val_main_v29 (F := Ideal) x1 e = (r : EReal) := by
  intro e
  rw [Read.val_main_v29_apply]
  obtain ⟨a, ha⟩ : ∃ r : ℝ, Read.val_main_v21 (F := Ideal) x1 e = (r : EReal) := by
    unfold Read.val_main_v21
    exact gathered_real x1 _ e
  obtain ⟨b, hb⟩ : ∃ r : ℝ, Read.val_main_v28 (F := Ideal) x1 e = (r : EReal) := by
    unfold Read.val_main_v28
    exact gathered_real x1 _ e
  rw [ha, hb]
  exact ⟨a * b, by rw [EReal.coe_mul]; rfl⟩

end Cert.ReferenceIdeal.WeightsReal

end
-- ==== Proof.InputsReal.lean ====
/-
  The precondition says that every float argument is a real number.

  The precondition is a conjunction of eleven tests, one per float argument: every entry's absolute value is
  below +∞. An extended real whose absolute value is below +∞ is neither +∞ nor −∞, so it is a real number.
-/
import proofs.«102224_j12773232738363_1_alg».proof.Pre_finite_inputs
import proofs.«102224_j12773232738363_1_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.InputsReal

open Idealize.ShloMosaic Idealize.ShloMosaic.ValueIdx Cert.Pre_finite_inputs

/-- The word of +∞ denotes +∞. -/
theorem ofBits_inf : Ideal.ofBits .f32 0x7F800000#32 = ⊤ := by
  simp [Ideal.ofBits, Ideal.ieee]

/-- The index set of a rank-0 array has one element. -/
instance subsingletonIdx0 : Subsingleton (⟨0, ![]⟩ : Shape).Idx := ⟨fun a b => funext fun d => d.elim0⟩

/-- An extended real whose absolute value is below +∞ is a real number. -/
theorem real_of_abs_lt_top (x : EReal) (h : Ideal.cmp .olt (max x (-x)) ⊤ = 1#1) : ∃ r : ℝ, x = (r : EReal) := by
  unfold Ideal.cmp at h
  have hlt : max x (-x) < ⊤ := by
    by_contra hn
    simp [hn] at h
  induction x using EReal.rec with
  | bot => simp at hlt
  | coe r => exact ⟨r, rfl⟩
  | top => simp at hlt

/-- One test of the precondition: if every entry's absolute value compares below the word of +∞, every
    entry is a real number. -/
theorem all_real {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1)
    (e : Host.reduce IntOp.andi
        (cmpf .olt (Host.absf a) (broadcastInDim s ![] hb (constant (F := Ideal) ⟨0, ![]⟩ .f32 0x7F800000#32)))
        init hr hu ix0 = 1#1) :
    ∀ i, ∃ r : ℝ, a i = (r : EReal) := by
  intro i
  have hi := Host.reduce_andi_all _ init hr hu ix0 e i
  have hbc : broadcastInDim s ![] hb (constant (F := Ideal) ⟨0, ![]⟩ .f32 0x7F800000#32) i = ⊤ := by
    rw [broadcastInDim_apply ![] hb _ i ix0 (fun d => d.elim0)]
    exact ofBits_inf
  apply real_of_abs_lt_top
  rw [← hbc]
  exact hi

/-- The conjunction of two one-bit arrays, read at an index. -/
theorem andi_at {s : Shape} (x y : IVec s 1) (j : s.Idx) : andi x y j = IntOp.andi (x j) (y j) := rfl

/-- The precondition holds only if each of the eleven float arguments has real entries throughout. -/
theorem inputs_real [Cert.Pre_finite_inputs.Facts]
    (a0 : FVec Ideal S100000x128 .f32) (a1 : IVec S2x1600000 32) (a2 : FVec Ideal S128x128 .f32)
    (a3 : FVec Ideal S128 .f32) (a4 : FVec Ideal S128 .f32) (a5 : FVec Ideal S128 .f32)
    (a6 : FVec Ideal S128x128 .f32) (a7 : FVec Ideal S128 .f32) (a8 : FVec Ideal S128 .f32)
    (a9 : FVec Ideal S128 .f32) (a10 : FVec Ideal S128x64 .f32) (a11 : FVec Ideal S64 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧
    (∀ i, ∃ r : ℝ, a11 i = (r : EReal)) := by
  have e := congrFun h ix0
  unfold Cert.Pre_finite_inputs.fn Cert.Pre_finite_inputs.fn_part1 Cert.Pre_finite_inputs.fn_part2
    Cert.Pre_finite_inputs.fn_part3 at e
  dsimp only at e
  simp only [andi_at, IntOp.andi_eq_one] at e
  obtain ⟨⟨⟨⟨⟨⟨⟨⟨⟨⟨h0, h2⟩, h3⟩, h4⟩, h5⟩, h6⟩, h7⟩, h8⟩, h9⟩, h10⟩, h11⟩ := e
  exact ⟨all_real a0 _ _ _ _ h0, all_real a2 _ _ _ _ h2, all_real a3 _ _ _ _ h3, all_real a4 _ _ _ _ h4,
    all_real a5 _ _ _ _ h5, all_real a6 _ _ _ _ h6, all_real a7 _ _ _ _ h7, all_real a8 _ _ _ _ h8,
    all_real a9 _ _ _ _ h9, all_real a10 _ _ _ _ h10, all_real a11 _ _ _ _ h11⟩

end Cert.InputsReal

end
-- ==== Proof.Laws.lean ====
/-
  The laws that join the two variance formulas, and that keep every intermediate array real.

  Over the reals the mean of the squared deviations from the mean is the mean of the squares less the square
  of the mean. On the extended reals the identity needs every entry to be a real number, because a difference
  of infinities is not cancelled; so the real-valuedness of every array the network forms is carried along:
  products and finite sums of reals are real, a weighted sum over edges of reals is real, and the inverse
  square root of a variance plus a positive constant is real because a variance taken directly is not negative.
-/
import proofs.«102224_j12773232738363_1_alg».proof.Proof.Model

noncomputable section

open scoped BigOperators

namespace Cert.Gcn

open Idealize.ShloMosaic Idealize.ShloMosaic.ValueIdx Cert.RowBias Cert.RowsProduct Cert.RowDot Cert.EdgeSum

/-- Every entry is a real number. -/
def IsReal {ι : Type} (f : ι → EReal) : Prop := ∀ i, ∃ r : ℝ, f i = (r : EReal)

/-! ## The constants -/

/-- The number of rows is the real 100000. -/
theorem count_eq : count = ((100000 : ℝ) : EReal) := by
  simp [count, Ideal.ofBits, Ideal.ieee, -EReal.coe_mul]; norm_num

/-- The small constant is a positive real. -/
theorem eps_pos : ∃ e : ℝ, 0 < e ∧ eps = (e : EReal) := by
  refine ⟨10995116 * (2 : ℝ) ^ (-40 : ℤ), by positivity, ?_⟩
  simp [eps, Ideal.ofBits, Ideal.ieee, -EReal.coe_mul]

/-- The zero word is zero. -/
theorem zero_word : Ideal.ofBits .f32 0x00000000#32 = 0 := Ideal.ofBits_zero_f32

/-! ## Sums of reals -/

/-- A finite sum of coerced reals is the coerced sum. -/
theorem coe_sum {ι : Type*} (s : Finset ι) (f : ι → ℝ) :
    ∑ a ∈ s, ((f a : ℝ) : EReal) = ((∑ a ∈ s, f a : ℝ) : EReal) := by
  classical
  induction s using Finset.induction_on with
  | empty => simp
  | insert a s ha ih => rw [Finset.sum_insert ha, Finset.sum_insert ha, ih, EReal.coe_add]

/-- The variance identity over the reals, for M numbers and n = M written as a real. -/
theorem real_var (M : ℕ) (n : ℝ) (hn : n ≠ 0) (hM : (M : ℝ) = n) (h : Fin M → ℝ) :
    (∑ p, h p * h p) * (1 / n) - (∑ p, h p) * (1 / n) * ((∑ p, h p) * (1 / n))
      = (∑ p, (h p - (∑ p, h p) * (1 / n)) * (h p - (∑ p, h p) * (1 / n))) * (1 / n) := by
  have e : ∑ p, (h p - (∑ p, h p) * (1 / n)) * (h p - (∑ p, h p) * (1 / n))
      = (∑ p, h p * h p) - 2 * ((∑ p, h p) * (1 / n)) * (∑ p, h p)
        + (M : ℝ) * (((∑ p, h p) * (1 / n)) * ((∑ p, h p) * (1 / n))) := by
    generalize (∑ p, h p) * (1 / n) = μ
    have hp : ∀ p, (h p - μ) * (h p - μ) = h p * h p - 2 * μ * h p + μ * μ := fun p => by ring
    simp only [hp, Finset.sum_add_distrib, Finset.sum_sub_distrib, ← Finset.mul_sum, Finset.sum_const,
      Finset.card_univ, Fintype.card_fin, nsmul_eq_mul]
    ring
  rw [e, hM]
  field_simp
  ring

/-! ## The variance identity on real-valued arrays -/

/-- On an array of reals the two variance formulas agree. -/
theorem var_eq {N : Nat} (H : Mat 100000 N) (hH : IsReal H) : varMoments H = varDirect H := by
  funext j
  choose h hh using hH
  show Ideal.div (∑ p : Fin 100000, H (ix2 p (j 1)) * H (ix2 p (j 1))) count
        - Ideal.div (∑ p : Fin 100000, H (ix2 p (j 1))) count * Ideal.div (∑ p : Fin 100000, H (ix2 p (j 1))) count
      = Ideal.div (∑ p : Fin 100000, (H (ix2 p (j 1)) - Ideal.div (∑ q : Fin 100000, H (ix2 q (j 1))) count)
          * (H (ix2 p (j 1)) - Ideal.div (∑ q : Fin 100000, H (ix2 q (j 1))) count)) count
  simp only [hh, count_eq, Ideal.div_coe (by norm_num : (100000 : ℝ) ≠ 0), coe_sum, ← EReal.coe_mul, ← EReal.coe_sub]
  exact congrArg _ (real_var 100000 100000 (by norm_num) (by norm_num) (fun p => h (ix2 p (j 1))))

/-! ## Real-valued arrays stay real -/

theorem isReal_rowsTimes {M K N : Nat} (x : Mat M K) (W : Mat K N) (hx : IsReal x) (hW : IsReal W) :
    IsReal (rowsTimes x W) := by
  intro i
  choose a ha using hx
  choose b hb using hW
  refine ⟨∑ k : Fin K, a (ix2 (i 0) k) * b (ix2 k (i 1)), ?_⟩
  show ∑ k : Fin K, x (ix2 (i 0) k) * W (ix2 k (i 1)) = _
  simp only [ha, hb, ← EReal.coe_mul, coe_sum]

theorem isReal_addRow {M N : Nat} (A : Mat M N) (b : Mat 1 N) (hA : IsReal A) (hb : IsReal b) :
    IsReal (addRow A b) := fun i => by
  obtain ⟨a, ha⟩ := hA i
  obtain ⟨r, hr⟩ := hb (ix2 0 (i 1))
  exact ⟨a + r, by show A i + b (ix2 0 (i 1)) = _; rw [ha, hr, EReal.coe_add]⟩

theorem isReal_asRow {N : Nat} (b : (⟨1, ![N]⟩ : Shape).Idx → EReal) (hb : IsReal b) : IsReal (asRow b) :=
  fun j => hb (ix1 (j 1))

theorem isReal_colSum {M N : Nat} (A : Mat M N) (hA : IsReal A) : IsReal (colSum A) :=
  fun j => sum_real Finset.univ _ (fun p _ => hA (ix2 p (j 1)))

theorem isReal_meanRow {N : Nat} (S : Mat 1 N) (hS : IsReal S) : IsReal (meanRow S) := fun j => by
  obtain ⟨s, hs⟩ := hS j
  exact ⟨s * (1 / 100000), by
    show Ideal.div (S j) count = _
    rw [hs, count_eq, Ideal.div_coe (by norm_num : (100000 : ℝ) ≠ 0), EReal.coe_mul]⟩

/-- A variance taken directly, of reals, is a real that is not negative. -/
theorem varDirect_nonneg {N : Nat} (H : Mat 100000 N) (hH : IsReal H) (j : (⟨2, ![1, N]⟩ : Shape).Idx) :
    ∃ v : ℝ, 0 ≤ v ∧ varDirect H j = (v : EReal) := by
  obtain ⟨μ, hμ⟩ := isReal_meanRow _ (isReal_colSum H hH) (ix2 0 (j 1))
  choose h hh using hH
  refine ⟨(∑ p : Fin 100000, (h (ix2 p (j 1)) - μ) * (h (ix2 p (j 1)) - μ)) * (1 / 100000),
    mul_nonneg (Finset.sum_nonneg fun p _ => mul_self_nonneg _) (by norm_num), ?_⟩
  show Ideal.div (∑ p : Fin 100000, (H (ix2 p (j 1)) - meanRow (colSum H) (ix2 0 (j 1)))
          * (H (ix2 p (j 1)) - meanRow (colSum H) (ix2 0 (j 1)))) count = _
  simp only [hh, hμ, count_eq, Ideal.div_coe (by norm_num : (100000 : ℝ) ≠ 0), coe_sum, ← EReal.coe_mul, ← EReal.coe_sub]

theorem isReal_normRelu {M N : Nat} (H : Mat M N) (mean var g be : Mat 1 N) (hH : IsReal H) (hm : IsReal mean)
    (hv : ∀ j, ∃ v : ℝ, 0 ≤ v ∧ var j = (v : EReal)) (hg : IsReal g) (hbe : IsReal be) :
    IsReal (normRelu H mean var g be) := by
  intro i
  obtain ⟨a, ha⟩ := hH i
  obtain ⟨μ, hμ⟩ := hm (ix2 0 (i 1))
  obtain ⟨v, hv0, hv⟩ := hv (ix2 0 (i 1))
  obtain ⟨γ, hγ⟩ := hg (ix2 0 (i 1))
  obtain ⟨β, hβ⟩ := hbe (ix2 0 (i 1))
  obtain ⟨e, he0, he⟩ := eps_pos
  have hr : Ideal.rsqrt (((v + e : ℝ)) : EReal) = (((Real.sqrt (v + e))⁻¹ : ℝ) : EReal) := by
    rw [Ideal.rsqrt_coe, if_neg (by linarith), if_neg (by linarith)]
  refine ⟨max ((a - μ) * (Real.sqrt (v + e))⁻¹ * γ + β) 0, ?_⟩
  show max ((H i - mean (ix2 0 (i 1))) * Ideal.rsqrt (var (ix2 0 (i 1)) + eps) * g (ix2 0 (i 1)) + be (ix2 0 (i 1)))
      (Ideal.ofBits .f32 0x00000000#32) = _
  rw [ha, hμ, hv, hγ, hβ, he, zero_word, ← EReal.coe_add v e, hr, ← EReal.coe_sub, ← EReal.coe_mul, ← EReal.coe_mul,
    ← EReal.coe_add, ← EReal.coe_zero]
  exact (EReal.coe_strictMono.monotone.map_max).symm

theorem isReal_conv {K C : Nat} (x : Mat 100000 K) (W : Mat K C) (b : Mat 1 C) (src dst : IVec ⟨2, ![1700000, 1]⟩ 32)
    (wt : (⟨1, ![1700000]⟩ : Shape).Idx → EReal) (hx : IsReal x) (hW : IsReal W) (hb : IsReal b) (hwt : IsReal wt) :
    IsReal (conv x W b src dst wt) :=
  isReal_addRow _ _ (fun i => edgeSum_real nodes_pos _ ⟨0, zero_word.trans EReal.coe_zero.symm⟩ _
    (isReal_rowsTimes x W hx hW) src dst wt hwt i) hb

theorem isReal_normalised_direct {C : Nat} (H : Mat 100000 C) (g be : Mat 1 C) (hH : IsReal H) (hg : IsReal g)
    (hbe : IsReal be) : IsReal (normalised varDirect H g be) :=
  isReal_normRelu H _ _ g be hH (isReal_meanRow _ (isReal_colSum H hH)) (varDirect_nonneg H hH) hg hbe

/-! ## The network does not depend on which variance formula it uses -/

theorem normalised_eq {C : Nat} (H : Mat 100000 C) (g be : Mat 1 C) (hH : IsReal H) :
    normalised varMoments H g be = normalised varDirect H g be := by
  unfold normalised
  rw [var_eq H hH]

/-- With real features, weights, biases, scales, shifts and edge weights the network computed with the
    variance through the moments is the network computed with the variance taken directly. -/
theorem model_eq (x : Mat 100000 128) (src dst : IVec ⟨2, ![1700000, 1]⟩ 32)
    (wt : (⟨1, ![1700000]⟩ : Shape).Idx → EReal)
    (W1 : Mat 128 128) (b1 g1 be1 : Mat 1 128) (W2 : Mat 128 128) (b2 g2 be2 : Mat 1 128)
    (W3 : Mat 128 64) (b3 : Mat 1 64)
    (hx : IsReal x) (hwt : IsReal wt) (hW1 : IsReal W1) (hb1 : IsReal b1) (hg1 : IsReal g1) (hbe1 : IsReal be1)
    (hW2 : IsReal W2) (hb2 : IsReal b2) :
    model varMoments x src dst wt W1 b1 g1 be1 W2 b2 g2 be2 W3 b3
      = model varDirect x src dst wt W1 b1 g1 be1 W2 b2 g2 be2 W3 b3 := by
  unfold model
  have h1 : IsReal (conv x W1 b1 src dst wt) := isReal_conv x W1 b1 src dst wt hx hW1 hb1 hwt
  rw [normalised_eq _ g1 be1 h1]
  have h2 : IsReal (normalised varDirect (conv x W1 b1 src dst wt) g1 be1) :=
    isReal_normalised_direct _ g1 be1 h1 hg1 hbe1
  have h3 : IsReal (conv (normalised varDirect (conv x W1 b1 src dst wt) g1 be1) W2 b2 src dst wt) :=
    isReal_conv _ W2 b2 src dst wt h2 hW2 hb2 hwt
  rw [normalised_eq _ g2 be2 h3]

end Cert.Gcn

end
-- ==== Proof.lean ====
/-
  The certificate: the kernel and its reference compute the same network.

  Both programs multiply the node features by a weight matrix, sum the product's rows over the graph's edges
  with the symmetric degree weights, add a bias, and (twice) normalise the columns, scale, shift and rectify.
  They differ in how the product is taken (blocks of rows on the matrix unit against one host product), in how
  the columns are summed (twenty blocks accumulated in turn against one reduction), and in the variance: the
  kernel takes the mean of the squares less the square of the mean, the reference the mean of the squared
  deviations. At the exact instance the first two differences vanish in any order of summation; the third is an
  identity of real numbers, and the precondition (every float argument finite) makes every array the network
  forms real-valued: products and finite sums of reals, degree weights that are inverse square roots of positive
  counts, and inverse square roots of a non-negative variance plus a positive constant.

  The frames of the two kernel programs are the generated frame certificates; the reference's frame is its run
  with the result dropped; no operation was rewritten by the idealization, so that claim is trivial.
-/
import proofs.«102224_j12773232738363_1_alg».proof.Defs
import proofs.«102224_j12773232738363_1_alg».proof.Proof.Gen.Kernel
import proofs.«102224_j12773232738363_1_alg».proof.Proof.Gen.Kernel.Frame
import proofs.«102224_j12773232738363_1_alg».proof.Proof.Gen.KernelIdeal
import proofs.«102224_j12773232738363_1_alg».proof.Proof.Gen.KernelIdeal.Frame
import proofs.«102224_j12773232738363_1_alg».proof.Proof.Gen.ReferenceIdeal
import proofs.«102224_j12773232738363_1_alg».proof.Proof.Gen.Pre_finite_inputs
import proofs.«102224_j12773232738363_1_alg».proof.Proof.KernelRun
import proofs.«102224_j12773232738363_1_alg».proof.Proof.KernelValue
import proofs.«102224_j12773232738363_1_alg».proof.Proof.EdgeStages
import proofs.«102224_j12773232738363_1_alg».proof.Proof.RefModel
import proofs.«102224_j12773232738363_1_alg».proof.Proof.RefWeightsReal
import proofs.«102224_j12773232738363_1_alg».proof.Proof.InputsReal
import proofs.«102224_j12773232738363_1_alg».proof.Proof.Laws
import Idealize.ShloMosaic.Adequacy
import Idealize.ShloMosaic.Init

set_option maxRecDepth 16384

noncomputable section

namespace Cert.Proof

open Idealize.ShloMosaic Idealize.ShloMosaic.TcCoe Idealize.SL.Sem
open Cert.Gcn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the network computed with the variance taken directly, of the arguments. -/
theorem algebraic : Cert.algebraic_KernelIdeal_ReferenceIdeal := by
  intro m ρ m' ρ' hpre hagree
  refine ⟨fun c => model varDirect (m ((c.tc : Thread Cert.KernelIdeal.nD Cert.KernelIdeal.τ).loc Cert.KernelIdeal.main_arg0))
      (Cert.ReferenceIdeal.Read.val_main_v36 (F := Ideal) (m ((c.tc : Thread Cert.KernelIdeal.nD Cert.KernelIdeal.τ).loc Cert.KernelIdeal.main_arg1)))
      (Cert.ReferenceIdeal.Read.val_main_v42 (F := Ideal) (m ((c.tc : Thread Cert.KernelIdeal.nD Cert.KernelIdeal.τ).loc Cert.KernelIdeal.main_arg1)))
      (Cert.ReferenceIdeal.Read.val_main_v29 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (asRow (m ((c.tc : Thread Cert.KernelIdeal.nD Cert.KernelIdeal.τ).loc Cert.KernelIdeal.main_arg3))) (asRow (m ((c.tc : Thread Cert.KernelIdeal.nD Cert.KernelIdeal.τ).loc Cert.KernelIdeal.main_arg4))) (asRow (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (asRow (m ((c.tc : Thread Cert.KernelIdeal.nD Cert.KernelIdeal.τ).loc Cert.KernelIdeal.main_arg7))) (asRow (m ((c.tc : Thread Cert.KernelIdeal.nD Cert.KernelIdeal.τ).loc Cert.KernelIdeal.main_arg8))) (asRow (m ((c.tc : Thread Cert.KernelIdeal.nD Cert.KernelIdeal.τ).loc Cert.KernelIdeal.main_arg9)))
      (m ((c.tc : Thread Cert.KernelIdeal.nD Cert.KernelIdeal.τ).loc Cert.KernelIdeal.main_arg10)) (asRow (m ((c.tc : Thread Cert.KernelIdeal.nD Cert.KernelIdeal.τ).loc Cert.KernelIdeal.main_arg11))), ?_, ?_⟩
  · refine (θ_run Cert.KernelIdeal.defs _ _).mono (fun r h c => ⟨(h c).1.trans ?_, (h c).2⟩)
      (Cert.KernelIdeal.RunValue.run (F := Ideal) m ρ)
    obtain ⟨h0, h2, h3, h4, h5, h6, h7, h8, h9, h10, h11⟩ :=
      Cert.InputsReal.inputs_real _ _ _ _ _ _ _ _ _ _ _ _ (hpre c)
    rw [Cert.KernelIdeal.KernelValue.value m ρ c]
    unfold Cert.KernelIdeal.KernelValue.srcs Cert.KernelIdeal.KernelValue.dsts Cert.KernelIdeal.KernelValue.wts
    rw [Cert.EdgeStages.sources_eq m ρ c, Cert.EdgeStages.targets_eq m ρ c, Cert.EdgeStages.weights_eq m ρ c]
    refine (model_eq _ _ _ _ _ _ _ _ _ _ _ _ _ _ h0 (Cert.ReferenceIdeal.WeightsReal.weights_real _) h2
      (isReal_asRow _ h3) (isReal_asRow _ h4) (isReal_asRow _ h5) h6 (isReal_asRow _ h7)).trans ?_
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v132_eq, Cert.ReferenceIdeal.RefModel.reference_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
